-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x256 : Shape := ⟨3, ![32, 16384, 256]⟩
abbrev S32x16x256 : Shape := ⟨3, ![32, 16, 256]⟩
abbrev S32x16 : Shape := ⟨2, ![32, 16]⟩
abbrev S_ : Shape := ⟨0, ![]⟩

class Facts : Prop where
  bcast_S_S32x16384x256 : S_.BroadcastsInDim S32x16384x256 (![] : Fin 0 → Fin S32x16384x256.rank)
  reducesTo_S32x16384x256_S_d0_1_2 : S32x16384x256.ReducesTo [0, 1, 2] S_
  h_S_ : 0 < S_.numel
  bcast_S_S32x16x256 : S_.BroadcastsInDim S32x16x256 (![] : Fin 0 → Fin S32x16x256.rank)
  reducesTo_S32x16x256_S_d0_1_2 : S32x16x256.ReducesTo [0, 1, 2] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S32x16384x256 .f32) (main_arg1 : FVec F S32x16x256 .f32) (main_arg2 : FVec F S32x16 .f32) : IVec S_ 1 :=
  let main_v0 : FVec F S32x16384x256 .f32 := Host.absf main_arg0
  let main_cst : FVec F S_ .f32 := constant S_ .f32 0x7F800000#32
  let main_v1 : FVec F S32x16384x256 .f32 := broadcastInDim S32x16384x256 ![] bcast_S_S32x16384x256 main_cst
  let main_v2 : IVec S32x16384x256 1 := cmpf .olt main_v0 main_v1
  let main_c : IVec S_ 1 := constantI S_ 1 1#1
  let main_v3 : IVec S_ 1 := (fun x v => Host.reduce IntOp.andi x v reducesTo_S32x16384x256_S_d0_1_2 h_S_) main_v2 main_c
  let main_v4 : FVec F S32x16x256 .f32 := Host.absf main_arg1
  let main_cst_0 : FVec F S_ .f32 := constant S_ .f32 0x7F800000#32
  let main_v5 : FVec F S32x16x256 .f32 := broadcastInDim S32x16x256 ![] bcast_S_S32x16x256 main_cst_0
  let main_v6 : IVec S32x16x256 1 := cmpf .olt main_v4 main_v5
  let main_c_1 : IVec S_ 1 := constantI S_ 1 1#1
  let main_v7 : IVec S_ 1 := (fun x v => Host.reduce IntOp.andi x v reducesTo_S32x16x256_S_d0_1_2 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  main_v13
-- ==== Kernel.lean ====
abbrev S32x16384x256 : Shape := ⟨3, ![32, 16384, 256]⟩
abbrev S32x16x256 : Shape := ⟨3, ![32, 16, 256]⟩
abbrev S32x16 : Shape := ⟨2, ![32, 16]⟩
abbrev S32x16x1 : Shape := ⟨3, ![32, 16, 1]⟩
abbrev S32x16x16384 : Shape := ⟨3, ![32, 16, 16384]⟩
abbrev S1x2048x256 : Shape := ⟨3, ![1, 2048, 256]⟩
abbrev S1x16x256 : Shape := ⟨3, ![1, 16, 256]⟩
abbrev S1x16x1 : Shape := ⟨3, ![1, 16, 1]⟩
abbrev S1x16x2048 : Shape := ⟨3, ![1, 16, 2048]⟩
abbrev S16x1 : Shape := ⟨2, ![16, 1]⟩
abbrev S2048x256 : Shape := ⟨2, ![2048, 256]⟩
abbrev S16x256 : Shape := ⟨2, ![16, 256]⟩
abbrev S256x2048 : Shape := ⟨2, ![256, 2048]⟩
abbrev S16x2048 : Shape := ⟨2, ![16, 2048]⟩
abbrev S2048 : Shape := ⟨1, ![2048]⟩
abbrev S2048x1 : Shape := ⟨2, ![2048, 1]⟩
abbrev S16 : Shape := ⟨1, ![16]⟩
abbrev S1x2048 : Shape := ⟨2, ![1, 2048]⟩
abbrev S1x16x16384 : Shape := ⟨3, ![1, 16, 16384]⟩
abbrev S16x16384 : Shape := ⟨2, ![16, 16384]⟩

abbrev nBuf : Space → Nat
  | .hbm => 7
  | .vmem => 17
  | .smem => 0
  | _ => 0

abbrev bufTy : (tb : Table) → Fin (tcTables nBuf tb) → BufTy
  | .hbm, ⟨0, _⟩ => ⟨S32x16384x256, .f32⟩
  | .hbm, ⟨1, _⟩ => ⟨S32x16x256, .f32⟩
  | .hbm, ⟨2, _⟩ => ⟨S32x16, .f32⟩
  | .hbm, ⟨3, _⟩ => ⟨S32x16x1, .f32⟩
  | .hbm, ⟨4, _⟩ => ⟨S32x16x16384, .f32⟩
  | .hbm, ⟨5, _⟩ => ⟨S32x16x1, .f32⟩
  | .hbm, ⟨6, _⟩ => ⟨S32x16x16384, .f32⟩
  | .local _ .vmem, ⟨0, _⟩ => ⟨S1x2048x256, .f32⟩
  | .local _ .vmem, ⟨1, _⟩ => ⟨S1x2048x256, .f32⟩
  | .local _ .vmem, ⟨2, _⟩ => ⟨S1x16x256, .f32⟩
  | .local _ .vmem, ⟨3, _⟩ => ⟨S1x16x256, .f32⟩
  | .local _ .vmem, ⟨4, _⟩ => ⟨S1x16x1, .f32⟩
  | .local _ .vmem, ⟨5, _⟩ => ⟨S1x16x1, .f32⟩
  | .local _ .vmem, ⟨6, _⟩ => ⟨S1x16x2048, .f32⟩
  | .local _ .vmem, ⟨7, _⟩ => ⟨S1x16x2048, .f32⟩
  | .local _ .vmem, ⟨8, _⟩ => ⟨S1x16x1, .f32⟩
  | .local _ .vmem, ⟨9, _⟩ => ⟨S1x16x1, .f32⟩
  | .local _ .vmem, ⟨10, _⟩ => ⟨S16x1, .f32⟩
  | .local _ .vmem, ⟨11, _⟩ => ⟨S1x16x16384, .f32⟩
  | .local _ .vmem, ⟨12, _⟩ => ⟨S1x16x16384, .f32⟩
  | .local _ .vmem, ⟨13, _⟩ => ⟨S1x16x1, .f32⟩
  | .local _ .vmem, ⟨14, _⟩ => ⟨S1x16x1, .f32⟩
  | .local _ .vmem, ⟨15, _⟩ => ⟨S1x16x16384, .f32⟩
  | .local _ .vmem, ⟨16, _⟩ => ⟨S1x16x16384, .f32⟩
  | _, _ => ⟨S32x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_24 : BitVec 32 := 0#32
  let v61 : BitVec 1 := Scalar.cmpi .ne v60 c0_i32_24
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S32x16_S32x16x1_0_1 : S32x16.BroadcastsInDim S32x16x1 (![0, 1] : Fin 2 → Fin S32x16x1.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  bitsLt_bf16_f32 : FTy.bits .bf16 < FTy.bits .f32
  transposes_S2048x256_p1_0_S256x2048 : S2048x256.Transposes [1, 0] S256x2048
  reduces_S2048x256_S2048 : S2048x256.Reduces [1] S2048
  shapeCasts_S2048_S2048x1 : S2048.ShapeCasts S2048x1
  reduces_S16x256_S16 : S16x256.Reduces [1] S16
  shapeCasts_S16_S16x1 : S16.ShapeCasts S16x1
  transposes_S2048x1_p1_0_S1x2048 : S2048x1.Transposes [1, 0] S1x2048
  broadcasts_S16x1_S16x2048 : S16x1.Broadcasts S16x2048
  broadcasts_S1x2048_S16x2048 : S1x2048.Broadcasts S16x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x2048_S16 : S16x2048.Reduces [1] S16
  shapeCasts_S16x1_S1x16x1 : S16x1.ShapeCasts S1x16x1
  inb_S1x16x16384_S1x16x16384_0_0_0 : ∀ a, (![0, 0, 0] : Fin 3 → Nat) a + S1x16x16384.size a ≤ S1x16x16384.size a
  h_S1x16x16384 : 0 < S1x16x16384.numel
  shapeCasts_S1x16x16384_S16x16384 : S1x16x16384.ShapeCasts S16x16384
  broadcasts_S16x1_S16x16384 : S16x1.Broadcasts S16x16384
  shapeCasts_S16x16384_S1x16x16384 : S16x16384.ShapeCasts S1x16x16384
  dot_S16x256_S256x2048_S16x2048_1_0_0_1_n_n_wf : DotDims.WF S16x256 S256x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x16384x256.size a
  hwx0_0 : ∀ i : grid0.Coords, EltTy.bits .f32 = 32 ∨ (Rect.block (s := S32x16384x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S32x16x256.size a
  hwx0_1 : ∀ i : grid0.Coords, EltTy.bits .f32 = 32 ∨ (Rect.block (s := S32x16x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S32x16x1.size a
  hwx0_2 : ∀ i : grid0.Coords, EltTy.bits .f32 = 32 ∨ (Rect.block (s := S32x16x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2048.size a ≤ S32x16x16384.size a
  hwx0_3 : ∀ i : grid0.Coords, EltTy.bits .f32 = 32 ∨ (Rect.block (s := S32x16x16384) S1x16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S32x16x1.size a
  hwx0_4 : ∀ i : grid0.Coords, EltTy.bits .f32 = 32 ∨ (Rect.block (s := S32x16x1) S1x16x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x16384.size a ≤ S32x16x16384.size a
  hwx1_0 : ∀ i : grid1.Coords, EltTy.bits .f32 = 32 ∨ (Rect.block (s := S32x16x16384) S1x16x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1.size a ≤ S32x16x1.size a
  hwx1_1 : ∀ i : grid1.Coords, EltTy.bits .f32 = 32 ∨ (Rect.block (s := S32x16x1) S1x16x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x16384.size a ≤ S32x16x16384.size a
  hwx1_2 : ∀ i : grid1.Coords, EltTy.bits .f32 = 32 ∨ (Rect.block (s := S32x16x16384) S1x16x16384.size (cc1_transform_2 i) (hinb1_2 i)).WholeWords (EltTy.packing .f32)

variable [Facts₀]

def dot_S16x256_S256x2048_S16x2048_1_0_0_1_n_n : DotDims S16x256 S256x2048 S16x2048 where
  lhsContracting := [1]
  rhsContracting := [0]
  lhsNonContracting := [0]
  rhsNonContracting := [1]
  lhsBatch := []
  rhsBatch := []
  wf := dot_S16x256_S256x2048_S16x2048_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x16x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1_0) S1x16x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x16x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x16384x256 : Shape := ⟨3, ![32, 16384, 256]⟩
abbrev S32x16x256 : Shape := ⟨3, ![32, 16, 256]⟩
abbrev S32x16 : Shape := ⟨2, ![32, 16]⟩
abbrev S32x16x16384 : Shape := ⟨3, ![32, 16, 16384]⟩
abbrev S_ : Shape := ⟨0, ![]⟩
abbrev S32x16384 : Shape := ⟨2, ![32, 16384]⟩
abbrev S32x16x1 : Shape := ⟨3, ![32, 16, 1]⟩
abbrev S32x1x16384 : Shape := ⟨3, ![32, 1, 16384]⟩

abbrev nBuf : Space → Nat
  | .hbm => 58
  | .vmem => 0
  | .smem => 0
  | _ => 0

abbrev bufTy : (tb : Table) → Fin (tcTables nBuf tb) → BufTy
  | .hbm, ⟨0, _⟩ => ⟨S32x16384x256, .f32⟩
  | .hbm, ⟨1, _⟩ => ⟨S32x16x256, .f32⟩
  | .hbm, ⟨2, _⟩ => ⟨S32x16, .f32⟩
  | .hbm, ⟨3, _⟩ => ⟨S32x16x16384, .f32⟩
  | .hbm, ⟨4, _⟩ => ⟨S32x16384x256, .f32⟩
  | .hbm, ⟨5, _⟩ => ⟨S_, .f32⟩
  | .hbm, ⟨6, _⟩ => ⟨S32x16384, .f32⟩
  | .hbm, ⟨7, _⟩ => ⟨S_, .f32⟩
  | .hbm, ⟨8, _⟩ => ⟨S32x16384, .f32⟩
  | .hbm, ⟨9, _⟩ => ⟨S32x16384, .f32⟩
  | .hbm, ⟨10, _⟩ => ⟨S32x16384, .f32⟩
  | .hbm, ⟨11, _⟩ => ⟨S32x16x256, .f32⟩
  | .hbm, ⟨12, _⟩ => ⟨S_, .f32⟩
  | .hbm, ⟨13, _⟩ => ⟨S32x16, .f32⟩
  | .hbm, ⟨14, _⟩ => ⟨S_, .f32⟩
  | .hbm, ⟨15, _⟩ => ⟨S32x16, .f32⟩
  | .hbm, ⟨16, _⟩ => ⟨S32x16, .f32⟩
  | .hbm, ⟨17, _⟩ => ⟨S32x16, .f32⟩
  | .hbm, ⟨18, _⟩ => ⟨S32x16x1, .f32⟩
  | .hbm, ⟨19, _⟩ => ⟨S32x1x16384, .f32⟩
  | .hbm, ⟨20, _⟩ => ⟨S32x16x16384, .f32⟩
  | .hbm, ⟨21, _⟩ => ⟨S32x16x16384, .f32⟩
  | .hbm, ⟨22, _⟩ => ⟨S32x16x16384, .f32⟩
  | .hbm, ⟨23, _⟩ => ⟨S_, .f32⟩
  | .hbm, ⟨24, _⟩ => ⟨S32x16x16384, .f32⟩
  | .hbm, ⟨25, _⟩ => ⟨S32x16x16384, .f32⟩
  | .hbm, ⟨26, _⟩ => ⟨S32x16x16384, .f32⟩
  | .hbm, ⟨27, _⟩ => ⟨S_, .f32⟩
  | .hbm, ⟨28, _⟩ => ⟨S32x16, .f32⟩
  | .hbm, ⟨29, _⟩ => ⟨S32x16, .f32⟩
  | .hbm, ⟨30, _⟩ => ⟨S32x16, .f32⟩
  | .hbm, ⟨31, _⟩ => ⟨S32x16, .f32⟩
  | .hbm, ⟨32, _⟩ => ⟨S32x16, .i1⟩
  | .hbm, ⟨33, _⟩ => ⟨S32x16, .f32⟩
  | .hbm, ⟨34, _⟩ => ⟨S32x16, .f32⟩
  | .hbm, ⟨35, _⟩ => ⟨S32x16, .f32⟩
  | .hbm, ⟨36, _⟩ => ⟨S32x16, .f32⟩
  | .hbm, ⟨37, _⟩ => ⟨S32x16, .f32⟩
  | .hbm, ⟨38, _⟩ => ⟨S32x16, .f32⟩
  | .hbm, ⟨39, _⟩ => ⟨S32x16, .f32⟩
  | .hbm, ⟨40, _⟩ => ⟨S32x16, .f32⟩
  | .hbm, ⟨41, _⟩ => ⟨S32x16x1, .f32⟩
  | .hbm, ⟨42, _⟩ => ⟨S32x16x16384, .f32⟩
  | .hbm, ⟨43, _⟩ => ⟨S32x16x16384, .f32⟩
  | .hbm, ⟨44, _⟩ => ⟨S_, .f32⟩
  | .hbm, ⟨45, _⟩ => ⟨S32x16, .f32⟩
  | .hbm, ⟨46, _⟩ => ⟨S_, .f32⟩
  | .hbm, ⟨47, _⟩ => ⟨S32x16, .f32⟩
  | .hbm, ⟨48, _⟩ => ⟨S32x16, .f32⟩
  | .hbm, ⟨49, _⟩ => ⟨S32x16x1, .f32⟩
  | .hbm, ⟨50, _⟩ => ⟨S32x16x16384, .f32⟩
  | .hbm, ⟨51, _⟩ => ⟨S32x16x16384, .f32⟩
  | .hbm, ⟨52, _⟩ => ⟨S32x16x16384, .f32⟩
  | .hbm, ⟨53, _⟩ => ⟨S_, .f32⟩
  | .hbm, ⟨54, _⟩ => ⟨S32x16, .f32⟩
  | .hbm, ⟨55, _⟩ => ⟨S32x16x1, .f32⟩
  | .hbm, ⟨56, _⟩ => ⟨S32x16x16384, .f32⟩
  | .hbm, ⟨57, _⟩ => ⟨S32x16x16384, .f32⟩
  | _, _ => ⟨S32x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]

class Facts₀ : Prop where
  reducesTo_S32x16384x256_S32x16384_d2 : S32x16384x256.ReducesTo [2] S32x16384
  h_S_ : 0 < S_.numel
  bcast_S_S32x16384 : S_.BroadcastsInDim S32x16384 (![] : Fin 0 → Fin S32x16384.rank)
  reducesTo_S32x16x256_S32x16_d2 : S32x16x256.ReducesTo [2] S32x16
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16384_S32x1x16384_0_2 : S32x16384.BroadcastsInDim S32x1x16384 (![0, 2] : Fin 2 → Fin S32x1x16384.rank)
  bcast_S32x16x1_S32x16x16384_0_1_2 : S32x16x1.BroadcastsInDim S32x16x16384 (![0, 1, 2] : Fin 3 → Fin S32x16x16384.rank)
  bcast_S32x1x16384_S32x16x16384_0_1_2 : S32x1x16384.BroadcastsInDim S32x16x16384 (![0, 1, 2] : Fin 3 → Fin S32x16x16384.rank)
  bcast_S_S32x16x16384 : S_.BroadcastsInDim S32x16x16384 (![] : Fin 0 → Fin S32x16x16384.rank)
  reducesTo_S32x16x16384_S32x16_d2 : S32x16x16384.ReducesTo [2] S32x16
  dot_S32x16x256_S32x16384x256_S32x16x16384_2_2_1_1_0_0_wf : DotDims.WF S32x16x256 S32x16384x256 S32x16x16384 [2] [2] [1] [1] [0] [0]

variable [Facts₀]

def dot_S32x16x256_S32x16384x256_S32x16x16384_2_2_1_1_0_0 : DotDims S32x16x256 S32x16384x256 S32x16x16384 where
  lhsContracting := [2]
  rhsContracting := [2]
  lhsNonContracting := [1]
  rhsNonContracting := [1]
  lhsBatch := [0]
  rhsBatch := [0]
  wf := dot_S32x16x256_S32x16384x256_S32x16x16384_2_2_1_1_0_0_wf

class Facts : Prop extends Facts₀ where

variable [Facts]
-- ==== Proof.HandK.Reg0Runs.lean ====
/- The first kernel of the program (one block of 2048 memory rows against the 16 keys of a batch entry, the
   running row sums kept in a scratch between the eight blocks of a batch entry): what its three control cases
   share. The body branches twice on the block's position j in its batch entry: at j = 0 it clears the scratch
   before adding to it, at j = 7 it copies the scratch into the row-sum output after adding to it. -/
import proofs.«119697_j1176821039589_1_alg».proof.Proof.Gen.Kernel.Launch
import proofs.«119697_j1176821039589_1_alg».proof.Proof.Gen.Kernel.Skeleton
import proofs.«119697_j1176821039589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first block of its batch entry" (j = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last block of its batch entry" (j = 7). -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last block of a batch entry the row-sum output is not stored into, -/
theorem idleAt0_4 : ∀ t : Fin cfg0.N, ¬cond0_1 (grid0.coords t) → cfg0.idle 4 (grid0.coords t) = true := by decide +kernel
/-- and not written back; -/
theorem noFlush0_4 : ∀ t : Fin cfg0.N, ¬cond0_1 (grid0.coords t) → (cfg0.win 4).flush t = false := by decide +kernel
/-- at the last block it is stored into. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1 .f32 := win0_4.stage (cfg0.slots t 4)
abbrev hs0_4 (t : Fin cfg0.N) : (ms0_4 t).IsWhole := hstage0_4 ((cfg0.slots t 4).cast nbuf0_4)
/-- The scratch holding the running row sums. -/
abbrev scM0_0 : Memref sig .tc .vmem S16x1 .f32 := Memref.whole cc0_scratch0
abbrev VS0_0 : View sig .tc .vmem S16x1 .f32 := scM0_0.view
/-- One staging buffer of each output window, through which contents are stated (any would do). -/
abbrev VO0_3 : View sig .tc .vmem S1x16x2048 .f32 := (Memref.whole cc0_stg3_0 : Memref sig .tc .vmem S1x16x2048 .f32).view
abbrev VO0_4 : View sig .tc .vmem S1x16x1 .f32 := (Memref.whole cc0_stg4_0 : Memref sig .tc .vmem S1x16x1 .f32).view

/-- The core's scoped buffers other than this kernel's staging buffers and its scratch: the second kernel's staging
    buffers, each at some contents. The first kernel never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant of a kernel that describes none of its scratch: the scratch at some contents, the other
    scoped buffers, the generator register at some state. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.Kernel.Hand

end
-- ==== Proof.HandK.Reg0RunA.lean ====
/- The first kernel's body run whole in one of its three control cases: the pieces each buffer ends with are
   found by the run itself. -/
import proofs.«119697_j1176821039589_1_alg».proof.Proof.HandK.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- THE FIRST BLOCK of a batch entry (j = 0): the scratch, at anything, is cleared and then receives this block's row sums; the exponentials go to the first output's buffer; the row-sum output's buffer is handed back untouched. -/
noncomputable def kernelRun0_A (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i)
    (x0 : Vec F S1x2048x256 .f32) (x1 : Vec F S1x16x256 .f32) (x2 : Vec F S1x16x1 .f32) :
    Σ' (L3 : List (View.Piece (Elt F) S1x16x2048 .f32)), { LS0 : List (View.Piece (Elt F) S16x1 .f32) //
      ∀ (xi4 : Vec F S1x16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__addressing_kernel i arg2 harg2 arg3 harg3 arg4 harg4 arg5 harg5 arg6 harg6 arg7 harg7) K } := by
  refine ⟨?_, ?_, fun xi4 E K => ?run⟩
  case run =>
    simp only [cc0__addressing_kernel_eq_skeleton]; unfold cc0__addressing_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.Hand

end
-- ==== Proof.HandK.Reg0RunB.lean ====
/- The first kernel's body run whole in one of its three control cases: the pieces each buffer ends with are
   found by the run itself. -/
import proofs.«119697_j1176821039589_1_alg».proof.Proof.HandK.Reg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- A MIDDLE BLOCK of a batch entry (0 < j < 7): the scratch, at what the block before left, receives this block's row sums on top; the exponentials go to the first output's buffer; the row-sum output's buffer is handed back untouched. -/
noncomputable def kernelRun0_B (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i)
    (x0 : Vec F S1x2048x256 .f32) (x1 : Vec F S1x16x256 .f32) (x2 : Vec F S1x16x1 .f32) (xs0 : Vec F S16x1 .f32) :
    Σ' (L3 : List (View.Piece (Elt F) S1x16x2048 .f32)), { LS0 : List (View.Piece (Elt F) S16x1 .f32) //
      ∀ (xi4 : Vec F S1x16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__addressing_kernel i arg2 harg2 arg3 harg3 arg4 harg4 arg5 harg5 arg6 harg6 arg7 harg7) K } := by
  refine ⟨?_, ?_, fun xi4 E K => ?run⟩
  case run =>
    simp only [cc0__addressing_kernel_eq_skeleton]; unfold cc0__addressing_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.Hand

end
-- ==== Proof.HandK.Reg0RunC.lean ====
/- The first kernel's body run whole in one of its three control cases: the pieces each buffer ends with are
   found by the run itself. -/
import proofs.«119697_j1176821039589_1_alg».proof.Proof.HandK.Reg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- THE LAST BLOCK of a batch entry (j = 7): the scratch, at what the block before left, receives this block's row sums on top and is then copied into the row-sum output's buffer; the exponentials go to the first output's buffer. -/
noncomputable def kernelRun0_C (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) :
    Σ' (L3 : List (View.Piece (Elt F) S1x16x2048 .f32)) (L4 : List (View.Piece (Elt F) S1x16x1 .f32)), { LS0 : List (View.Piece (Elt F) S16x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__addressing_kernel i arg2 harg2 arg3 harg3 arg4 harg4 arg5 harg5 arg6 harg6 arg7 harg7) K } := by
  refine ⟨?_, ?_, ?_, fun E K => ?run⟩
  case run =>
    simp only [cc0__addressing_kernel_eq_skeleton]; unfold cc0__addressing_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.HandK.Reg0.lean ====
/- The first kernel as a region of the program, at any contents `V` of the buffers when the region is entered:
   what each point leaves in the two outputs' buffers and in the scratch (by recursion on the point: a middle or last
   block adds to what the block before left), the region's invariant (the scratch holds the running row sums of the
   batch entry so far), the proof data and the body obligation. -/
import proofs.«119697_j1176821039589_1_alg».proof.Proof.HandK.Reg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (the keys and the strengths
    are fetched only at the first block of a batch entry: in between the block index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pieces cover the buffers -/

theorem cover0_A_3 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i)
    (x0 : Vec F S1x2048x256 .f32) (x1 : Vec F S1x16x256 .f32) (x2 : Vec F S1x16x1 .f32) (y : S1x16x2048.Idx) :
    ∃ pc ∈ (kernelRun0_A (F := F) c i arg2 harg2 arg3 harg3 arg4 harg4 arg5 harg5 arg6 harg6 arg7 harg7 hc0 hc1 x0 x1 x2).1, y ∈ pc.1.set :=
  View.cover_of_tiledL (kernelRun0_A (F := F) c i arg2 harg2 arg3 harg3 arg4 harg4 arg5 harg5 arg6 harg6 arg7 harg7 hc0 hc1 x0 x1 x2).1 S1x16x2048.size (by sl_kernel_rfl) y
theorem scover0_A (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i)
    (x0 : Vec F S1x2048x256 .f32) (x1 : Vec F S1x16x256 .f32) (x2 : Vec F S1x16x1 .f32) (y : S16x1.Idx) :
    ∃ pc ∈ (kernelRun0_A (F := F) c i arg2 harg2 arg3 harg3 arg4 harg4 arg5 harg5 arg6 harg6 arg7 harg7 hc0 hc1 x0 x1 x2).2.1, y ∈ pc.1.set :=
  View.cover_of_tiledL (kernelRun0_A (F := F) c i arg2 harg2 arg3 harg3 arg4 harg4 arg5 harg5 arg6 harg6 arg7 harg7 hc0 hc1 x0 x1 x2).2.1 S16x1.size (by sl_kernel_rfl) y

theorem cover0_B_3 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i)
    (x0 : Vec F S1x2048x256 .f32) (x1 : Vec F S1x16x256 .f32) (x2 : Vec F S1x16x1 .f32) (xs0 : Vec F S16x1 .f32) (y : S1x16x2048.Idx) :
    ∃ pc ∈ (kernelRun0_B (F := F) c i arg2 harg2 arg3 harg3 arg4 harg4 arg5 harg5 arg6 harg6 arg7 harg7 hc0 hc1 x0 x1 x2 xs0).1, y ∈ pc.1.set :=
  View.cover_of_tiledL (kernelRun0_B (F := F) c i arg2 harg2 arg3 harg3 arg4 harg4 arg5 harg5 arg6 harg6 arg7 harg7 hc0 hc1 x0 x1 x2 xs0).1 S1x16x2048.size (by sl_kernel_rfl) y
theorem scover0_B (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i)
    (x0 : Vec F S1x2048x256 .f32) (x1 : Vec F S1x16x256 .f32) (x2 : Vec F S1x16x1 .f32) (xs0 : Vec F S16x1 .f32) (y : S16x1.Idx) :
    ∃ pc ∈ (kernelRun0_B (F := F) c i arg2 harg2 arg3 harg3 arg4 harg4 arg5 harg5 arg6 harg6 arg7 harg7 hc0 hc1 x0 x1 x2 xs0).2.1, y ∈ pc.1.set :=
  View.cover_of_tiledL (kernelRun0_B (F := F) c i arg2 harg2 arg3 harg3 arg4 harg4 arg5 harg5 arg6 harg6 arg7 harg7 hc0 hc1 x0 x1 x2 xs0).2.1 S16x1.size (by sl_kernel_rfl) y

theorem cover0_C_3 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) (y : S1x16x2048.Idx) :
    ∃ pc ∈ (kernelRun0_C (F := F) c i arg2 harg2 arg3 harg3 arg4 harg4 arg5 harg5 arg6 harg6 arg7 harg7 hc0 hc1 x0 x1 x2 xs0).1, y ∈ pc.1.set :=
  View.cover_of_tiledL (kernelRun0_C (F := F) c i arg2 harg2 arg3 harg3 arg4 harg4 arg5 harg5 arg6 harg6 arg7 harg7 hc0 hc1 x0 x1 x2 xs0).1 S1x16x2048.size (by sl_kernel_rfl) y
theorem scover0_C (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) (y : S16x1.Idx) :
    ∃ pc ∈ (kernelRun0_C (F := F) c i arg2 harg2 arg3 harg3 arg4 harg4 arg5 harg5 arg6 harg6 arg7 harg7 hc0 hc1 x0 x1 x2 xs0).2.2.1, y ∈ pc.1.set :=
  View.cover_of_tiledL (kernelRun0_C (F := F) c i arg2 harg2 arg3 harg3 arg4 harg4 arg5 harg5 arg6 harg6 arg7 harg7 hc0 hc1 x0 x1 x2 xs0).2.2.1 S16x1.size (by sl_kernel_rfl) y
theorem cover0_C_4 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) (y : S1x16x1.Idx) :
    ∃ pc ∈ (kernelRun0_C (F := F) c i arg2 harg2 arg3 harg3 arg4 harg4 arg5 harg5 arg6 harg6 arg7 harg7 hc0 hc1 x0 x1 x2 xs0).2.1, y ∈ pc.1.set :=
  View.cover_of_tiledL (kernelRun0_C (F := F) c i arg2 harg2 arg3 harg3 arg4 harg4 arg5 harg5 arg6 harg6 arg7 harg7 hc0 hc1 x0 x1 x2 xs0).2.1 S1x16x1.size (by sl_kernel_rfl) y

/-! ## What a point leaves -/

/-- The body's run at point `t` on the memrefs the pipeline calls it with and the point's input blocks, per case. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => absurd ((hcond0_1 t).mp h) (by omega)) (iblk0 V c 0 t) (iblk0 V c 1 t) (iblk0 V c 2 t)
def runB (c : Dev nD) (t : Fin cfg0.N) (h0 : ¬t.val % 8 = 0) (h1 : ¬t.val % 8 = 7) (xs : Vec F S16x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs
def runC (c : Dev nD) (t : Fin cfg0.N) (h0 : ¬t.val % 8 = 0) (h1 : t.val % 8 = 7) (xs : Vec F S16x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs

/-- What point `t` leaves — the exponentials' buffer, the row-sum output's buffer, the scratch — at a first block
    (the row-sum buffer is not stored into: a placeholder nothing reads), -/
def caseA (c : Dev nD) (t : Fin cfg0.N) (h0 : t.val % 8 = 0) : Vec F S1x16x2048 .f32 × Vec F S1x16x1 .f32 × Vec F S16x1 .f32 :=
  (VO0_3.read (Elt F) (VO0_3.writes (Elt F) VO0_3.junk (runA V c t h0).1), VO0_4.read (Elt F) VO0_4.junk,
    VS0_0.read (Elt F) (VS0_0.writes (Elt F) VS0_0.junk (runA V c t h0).2.1))
/-- at a middle block, over the scratch `xs` the block before left, -/
def caseB (c : Dev nD) (t : Fin cfg0.N) (h0 : ¬t.val % 8 = 0) (h1 : ¬t.val % 8 = 7) (xs : Vec F S16x1 .f32) : Vec F S1x16x2048 .f32 × Vec F S1x16x1 .f32 × Vec F S16x1 .f32 :=
  (VO0_3.read (Elt F) (VO0_3.writes (Elt F) VO0_3.junk (runB V c t h0 h1 xs).1), VO0_4.read (Elt F) VO0_4.junk,
    VS0_0.read (Elt F) (VS0_0.writes (Elt F) VS0_0.junk (runB V c t h0 h1 xs).2.1))
/-- and at a last block. -/
def caseC (c : Dev nD) (t : Fin cfg0.N) (h0 : ¬t.val % 8 = 0) (h1 : t.val % 8 = 7) (xs : Vec F S16x1 .f32) : Vec F S1x16x2048 .f32 × Vec F S1x16x1 .f32 × Vec F S16x1 .f32 :=
  (VO0_3.read (Elt F) (VO0_3.writes (Elt F) VO0_3.junk (runC V c t h0 h1 xs).1), VO0_4.read (Elt F) (VO0_4.writes (Elt F) VO0_4.junk (runC V c t h0 h1 xs).2.1),
    VS0_0.read (Elt F) (VS0_0.writes (Elt F) VS0_0.junk (runC V c t h0 h1 xs).2.2.1))

/-- One point's step, from the scratch the point before left. -/
def stepAt0 (c : Dev nD) (t : Fin cfg0.N) (xs : Vec F S16x1 .f32) : Vec F S1x16x2048 .f32 × Vec F S1x16x1 .f32 × Vec F S16x1 .f32 :=
  if h0 : t.val % 8 = 0 then caseA V c t h0
  else if h1 : t.val % 8 = 7 then caseC V c t h0 h1 xs
  else caseB V c t h0 h1 xs

theorem stepAt0_A (c : Dev nD) (t : Fin cfg0.N) (xs : Vec F S16x1 .f32) (h0 : t.val % 8 = 0) : stepAt0 V c t xs = caseA V c t h0 := dif_pos h0
theorem stepAt0_B (c : Dev nD) (t : Fin cfg0.N) (xs : Vec F S16x1 .f32) (h0 : ¬t.val % 8 = 0) (h1 : ¬t.val % 8 = 7) : stepAt0 V c t xs = caseB V c t h0 h1 xs := (dif_neg h0).trans (dif_neg h1)
theorem stepAt0_C (c : Dev nD) (t : Fin cfg0.N) (xs : Vec F S16x1 .f32) (h0 : ¬t.val % 8 = 0) (h1 : t.val % 8 = 7) : stepAt0 V c t xs = caseC V c t h0 h1 xs := (dif_neg h0).trans (dif_pos h1)

/-- THE ACCUMULATION: what the outputs' buffers and the scratch hold after the body at position `n`. -/
def outsAt0 (c : Dev nD) : (n : ℕ) → n < cfg0.N → Vec F S1x16x2048 .f32 × Vec F S1x16x1 .f32 × Vec F S16x1 .f32
  | 0, hn => stepAt0 V c ⟨0, hn⟩ (VS0_0.read (Elt F) VS0_0.junk)
  | n + 1, hn => stepAt0 V c ⟨n + 1, hn⟩ (outsAt0 c n (Nat.lt_of_succ_lt hn)).2.2

theorem outsAt0_pos (c : Dev nD) (t : Fin cfg0.N) (hz : t.val ≠ 0) :
    outsAt0 V c t.val t.isLt = stepAt0 V c t (outsAt0 V c (t.val - 1) (Nat.lt_of_le_of_lt (Nat.sub_le _ _) t.isLt)).2.2 := by
  obtain ⟨n, hn⟩ := t
  cases n with
  | zero => exact absurd rfl hz
  | succ n => rfl

theorem outsAt0_A (c : Dev nD) (t : Fin cfg0.N) (h0 : t.val % 8 = 0) : outsAt0 V c t.val t.isLt = caseA V c t h0 := by
  obtain ⟨n, hn⟩ := t
  cases n with
  | zero => exact stepAt0_A V c _ _ h0
  | succ n => exact stepAt0_A V c _ _ h0
theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2.2 :=
  (outsAt0_pos V c t (fun hz => h0 (by rw [hz]))).trans (stepAt0_B V c t _ h0 h1)
theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2.2 :=
  (outsAt0_pos V c t (fun hz => h0 (by rw [hz]))).trans (stepAt0_C V c t _ h0 h1)

/-! ## The region's invariant -/

/-- Before the first point the scratch is at anything; after point `n` it holds that point's running row sums. The
    second kernel's staging buffers and the generator register ride along untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ restS0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the scratch at what the point before left (at anything before the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0]
    unfold caseA; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩⟩
      iapply ((runA V c t h0).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _)
      iexists _; iexact H4
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runA V c t h0).2.2 _ Set.univ _)
      isplitl [H0]; · iexact H0
      isplitl [H1]; · iexact H1
      isplitl [H2]; · iexact H2
      isplitl [H3]; · iexists _; iexact H3
      isplitl [H4]; · iexact H4
      isplitl [HS0]; · iexists _; iexact HS0
      iintro ⟨H0, H1, H2, ⟨%e3, H3⟩, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _)
      iexists _; iexact H4
  · have hz : t.val ≠ 0 := fun hz => h0 (by rw [hz])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold caseC; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((runC V c t h0 h1 _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold caseB; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((runB V c t h0 h1 _).2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scratch back at contents it no longer names. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 256 := N_0; omega)

end Region0

end Cert.Kernel.Hand

end
-- ==== Proof.HandK.Reg1.lean ====
/- The frame half of the second kernel of @main (the normalisation: every row of the first kernel's output
   block divided by that row's sum), stated at a PARAMETER `V`: the TensorCore's buffer contents when the
   kernel's pipeline is entered. Each window's block at a grid point, what the body leaves in the output
   window's staging buffer as a function of the two input blocks, the body's triple, the pipeline's proof data
   and its body obligation. Generic in the float type. -/
import proofs.«119697_j1176821039589_1_alg».proof.Proof.Gen.Kernel.Launch
import proofs.«119697_j1176821039589_1_alg».proof.Proof.Gen.Kernel.Skeleton
import proofs.«119697_j1176821039589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the second kernel's pipeline is entered
variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the row sums). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 x 16 x 16384 block: the rectangle of the load of the numerators and of the one store. -/
abbrev r1_0 : Rect S1x16x16384 := Rect.unit (s := S1x16x16384) ![0, 0, 0] S1x16x16384.size inb_S1x16x16384_S1x16x16384_0_0_0
/-- The whole 1 x 16 x 1 block: the rectangle of the load of the row sums. -/
abbrev r1_1 : Rect S1x16x1 := Rect.unit (s := S1x16x1) ![0, 0, 0] S1x16x1.size inb_S1x16x1_S1x16x1_0_0_0

/-! ## What the body leaves in the output window's buffer -/

/-- Window 2's staging buffer after the body, from the two input windows' blocks: its one store as a piece, the
    payload the quotient of the numerators' block by the row sums broadcast along the long axis. -/
def out1_2 (x0 : Vec F S1x16x16384 .f32) (x1 : Vec F S1x16x1 .f32) : Vec F S1x16x16384 .f32 :=
  View.canon [⟨r1_0, k1_pay1 (View.ld x0 r1_0) (View.ld x1 r1_1)⟩]

/-- The one store is through the whole block, so it covers the buffer. -/
theorem cover1_2 (p0 : Vec F S1x16x16384 .f32) (y : S1x16x16384.Idx) :
    ∃ pc ∈ ([⟨r1_0, p0⟩] : List (View.Piece (Elt F) S1x16x16384 .f32)), y ∈ pc.1.set :=
  View.cover_of_tiled [⟨r1_0, p0⟩] S1x16x16384.size (by rfl) y

/-! ## The body's triple -/

set_option maxHeartbeats 1000000 in
/-- The kernel body on whole staging memrefs, the inputs' at contents `x0`, `x1` and the output's at anything, runs to
    the continuation holding the inputs' as they were and the output's at `out1_2 x0 x1`. -/
theorem sound_kernel1 (c : Dev nD) (E : Set ℕ) (i : grid1.Coords)
    (arg0 : Memref sig .tc .vmem S1x16x16384 .f32) (harg0 : arg0.IsWhole)
    (arg1 : Memref sig .tc .vmem S1x16x1 .f32) (harg1 : arg1.IsWhole)
    (arg2 : Memref sig .tc .vmem S1x16x16384 .f32) (harg2 : arg2.IsWhole)
    (x0 : Vec F S1x16x16384 .f32) (x1 : Vec F S1x16x1 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__normalize_kernel i arg0 harg0 arg1 harg1 arg2 harg2) K := by
  simp only [cc1__normalize_kernel_eq_skeleton]; unfold cc1__normalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second kernel's pipeline on core `c`: the arrays as the pipeline finds them (`V`); after
    the body at point `t` each input's buffer at its block and the output's at `out1_2` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.HandK.Run.lean ====
/- The whole program as a run of three segments — the host line that reshapes the strengths, the first kernel,
   the second kernel — with the contents of every unscoped buffer named at each boundary: a fold from the launch
   memory, a kernel's arrays at what its write-backs leave. Every weakly fair execution terminates and ends with
   every unscoped buffer at the last boundary's contents; the frame claim (the arguments end as launched) is read
   off that. -/
import proofs.«119697_j1176821039589_1_alg».proof.Proof.HandK.Reg0
import proofs.«119697_j1176821039589_1_alg».proof.Proof.HandK.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host line (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the host line writes none, the first kernel only reads the memory and the keys
    through input windows, the second kernel touches none -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.HandKI.Reg0Runs.lean ====
/- The first kernel of the program (one block of 2048 memory rows against the 16 keys of a batch entry, the
   running row sums kept in a scratch between the eight blocks of a batch entry): what its three control cases
   share. The body branches twice on the block's position j in its batch entry: at j = 0 it clears the scratch
   before adding to it, at j = 7 it copies the scratch into the row-sum output after adding to it. -/
import proofs.«119697_j1176821039589_1_alg».proof.Proof.Gen.KernelIdeal.Launch
import proofs.«119697_j1176821039589_1_alg».proof.Proof.Gen.KernelIdeal.Skeleton
import proofs.«119697_j1176821039589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first block of its batch entry" (j = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last block of its batch entry" (j = 7). -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last block of a batch entry the row-sum output is not stored into, -/
theorem idleAt0_4 : ∀ t : Fin cfg0.N, ¬cond0_1 (grid0.coords t) → cfg0.idle 4 (grid0.coords t) = true := by decide +kernel
/-- and not written back; -/
theorem noFlush0_4 : ∀ t : Fin cfg0.N, ¬cond0_1 (grid0.coords t) → (cfg0.win 4).flush t = false := by decide +kernel
/-- at the last block it is stored into. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1 .f32 := win0_4.stage (cfg0.slots t 4)
abbrev hs0_4 (t : Fin cfg0.N) : (ms0_4 t).IsWhole := hstage0_4 ((cfg0.slots t 4).cast nbuf0_4)
/-- The scratch holding the running row sums. -/
abbrev scM0_0 : Memref sig .tc .vmem S16x1 .f32 := Memref.whole cc0_scratch0
abbrev VS0_0 : View sig .tc .vmem S16x1 .f32 := scM0_0.view
/-- One staging buffer of each output window, through which contents are stated (any would do). -/
abbrev VO0_3 : View sig .tc .vmem S1x16x2048 .f32 := (Memref.whole cc0_stg3_0 : Memref sig .tc .vmem S1x16x2048 .f32).view
abbrev VO0_4 : View sig .tc .vmem S1x16x1 .f32 := (Memref.whole cc0_stg4_0 : Memref sig .tc .vmem S1x16x1 .f32).view

/-- The core's scoped buffers other than this kernel's staging buffers and its scratch: the second kernel's staging
    buffers, each at some contents. The first kernel never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant of a kernel that describes none of its scratch: the scratch at some contents, the other
    scoped buffers, the generator register at some state. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.KernelIdeal.Hand

end
-- ==== Proof.HandKI.Reg0RunA.lean ====
/- The first kernel's body run whole in one of its three control cases: the pieces each buffer ends with are
   found by the run itself. -/
import proofs.«119697_j1176821039589_1_alg».proof.Proof.HandKI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- THE FIRST BLOCK of a batch entry (j = 0): the scratch, at anything, is cleared and then receives this block's row sums; the exponentials go to the first output's buffer; the row-sum output's buffer is handed back untouched. -/
noncomputable def kernelRun0_A (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i)
    (x0 : Vec F S1x2048x256 .f32) (x1 : Vec F S1x16x256 .f32) (x2 : Vec F S1x16x1 .f32) :
    Σ' (L3 : List (View.Piece (Elt F) S1x16x2048 .f32)), { LS0 : List (View.Piece (Elt F) S16x1 .f32) //
      ∀ (xi4 : Vec F S1x16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__addressing_kernel i arg2 harg2 arg3 harg3 arg4 harg4 arg5 harg5 arg6 harg6 arg7 harg7) K } := by
  refine ⟨?_, ?_, fun xi4 E K => ?run⟩
  case run =>
    simp only [cc0__addressing_kernel_eq_skeleton]; unfold cc0__addressing_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.Hand

end
-- ==== Proof.HandKI.Reg0RunB.lean ====
/- The first kernel's body run whole in one of its three control cases: the pieces each buffer ends with are
   found by the run itself. -/
import proofs.«119697_j1176821039589_1_alg».proof.Proof.HandKI.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- A MIDDLE BLOCK of a batch entry (0 < j < 7): the scratch, at what the block before left, receives this block's row sums on top; the exponentials go to the first output's buffer; the row-sum output's buffer is handed back untouched. -/
noncomputable def kernelRun0_B (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i)
    (x0 : Vec F S1x2048x256 .f32) (x1 : Vec F S1x16x256 .f32) (x2 : Vec F S1x16x1 .f32) (xs0 : Vec F S16x1 .f32) :
    Σ' (L3 : List (View.Piece (Elt F) S1x16x2048 .f32)), { LS0 : List (View.Piece (Elt F) S16x1 .f32) //
      ∀ (xi4 : Vec F S1x16x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__addressing_kernel i arg2 harg2 arg3 harg3 arg4 harg4 arg5 harg5 arg6 harg6 arg7 harg7) K } := by
  refine ⟨?_, ?_, fun xi4 E K => ?run⟩
  case run =>
    simp only [cc0__addressing_kernel_eq_skeleton]; unfold cc0__addressing_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.Hand

end
-- ==== Proof.HandKI.Reg0RunC.lean ====
/- The first kernel's body run whole in one of its three control cases: the pieces each buffer ends with are
   found by the run itself. -/
import proofs.«119697_j1176821039589_1_alg».proof.Proof.HandKI.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- THE LAST BLOCK of a batch entry (j = 7): the scratch, at what the block before left, receives this block's row sums on top and is then copied into the row-sum output's buffer; the exponentials go to the first output's buffer. -/
noncomputable def kernelRun0_C (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) :
    Σ' (L3 : List (View.Piece (Elt F) S1x16x2048 .f32)) (L4 : List (View.Piece (Elt F) S1x16x1 .f32)), { LS0 : List (View.Piece (Elt F) S16x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__addressing_kernel i arg2 harg2 arg3 harg3 arg4 harg4 arg5 harg5 arg6 harg6 arg7 harg7) K } := by
  refine ⟨?_, ?_, ?_, fun E K => ?run⟩
  case run =>
    simp only [cc0__addressing_kernel_eq_skeleton]; unfold cc0__addressing_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.HandKI.Reg0.lean ====
/- The first kernel as a region of the program, at any contents `V` of the buffers when the region is entered:
   what each point leaves in the two outputs' buffers and in the scratch (by recursion on the point: a middle or last
   block adds to what the block before left), the region's invariant (the scratch holds the running row sums of the
   batch entry so far), the proof data and the body obligation. -/
import proofs.«119697_j1176821039589_1_alg».proof.Proof.HandKI.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (the keys and the strengths
    are fetched only at the first block of a batch entry: in between the block index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pieces cover the buffers -/

theorem cover0_A_3 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i)
    (x0 : Vec F S1x2048x256 .f32) (x1 : Vec F S1x16x256 .f32) (x2 : Vec F S1x16x1 .f32) (y : S1x16x2048.Idx) :
    ∃ pc ∈ (kernelRun0_A (F := F) c i arg2 harg2 arg3 harg3 arg4 harg4 arg5 harg5 arg6 harg6 arg7 harg7 hc0 hc1 x0 x1 x2).1, y ∈ pc.1.set :=
  View.cover_of_tiledL (kernelRun0_A (F := F) c i arg2 harg2 arg3 harg3 arg4 harg4 arg5 harg5 arg6 harg6 arg7 harg7 hc0 hc1 x0 x1 x2).1 S1x16x2048.size (by sl_kernel_rfl) y
theorem scover0_A (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i)
    (x0 : Vec F S1x2048x256 .f32) (x1 : Vec F S1x16x256 .f32) (x2 : Vec F S1x16x1 .f32) (y : S16x1.Idx) :
    ∃ pc ∈ (kernelRun0_A (F := F) c i arg2 harg2 arg3 harg3 arg4 harg4 arg5 harg5 arg6 harg6 arg7 harg7 hc0 hc1 x0 x1 x2).2.1, y ∈ pc.1.set :=
  View.cover_of_tiledL (kernelRun0_A (F := F) c i arg2 harg2 arg3 harg3 arg4 harg4 arg5 harg5 arg6 harg6 arg7 harg7 hc0 hc1 x0 x1 x2).2.1 S16x1.size (by sl_kernel_rfl) y

theorem cover0_B_3 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i)
    (x0 : Vec F S1x2048x256 .f32) (x1 : Vec F S1x16x256 .f32) (x2 : Vec F S1x16x1 .f32) (xs0 : Vec F S16x1 .f32) (y : S1x16x2048.Idx) :
    ∃ pc ∈ (kernelRun0_B (F := F) c i arg2 harg2 arg3 harg3 arg4 harg4 arg5 harg5 arg6 harg6 arg7 harg7 hc0 hc1 x0 x1 x2 xs0).1, y ∈ pc.1.set :=
  View.cover_of_tiledL (kernelRun0_B (F := F) c i arg2 harg2 arg3 harg3 arg4 harg4 arg5 harg5 arg6 harg6 arg7 harg7 hc0 hc1 x0 x1 x2 xs0).1 S1x16x2048.size (by sl_kernel_rfl) y
theorem scover0_B (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i)
    (x0 : Vec F S1x2048x256 .f32) (x1 : Vec F S1x16x256 .f32) (x2 : Vec F S1x16x1 .f32) (xs0 : Vec F S16x1 .f32) (y : S16x1.Idx) :
    ∃ pc ∈ (kernelRun0_B (F := F) c i arg2 harg2 arg3 harg3 arg4 harg4 arg5 harg5 arg6 harg6 arg7 harg7 hc0 hc1 x0 x1 x2 xs0).2.1, y ∈ pc.1.set :=
  View.cover_of_tiledL (kernelRun0_B (F := F) c i arg2 harg2 arg3 harg3 arg4 harg4 arg5 harg5 arg6 harg6 arg7 harg7 hc0 hc1 x0 x1 x2 xs0).2.1 S16x1.size (by sl_kernel_rfl) y

theorem cover0_C_3 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) (y : S1x16x2048.Idx) :
    ∃ pc ∈ (kernelRun0_C (F := F) c i arg2 harg2 arg3 harg3 arg4 harg4 arg5 harg5 arg6 harg6 arg7 harg7 hc0 hc1 x0 x1 x2 xs0).1, y ∈ pc.1.set :=
  View.cover_of_tiledL (kernelRun0_C (F := F) c i arg2 harg2 arg3 harg3 arg4 harg4 arg5 harg5 arg6 harg6 arg7 harg7 hc0 hc1 x0 x1 x2 xs0).1 S1x16x2048.size (by sl_kernel_rfl) y
theorem scover0_C (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) (y : S16x1.Idx) :
    ∃ pc ∈ (kernelRun0_C (F := F) c i arg2 harg2 arg3 harg3 arg4 harg4 arg5 harg5 arg6 harg6 arg7 harg7 hc0 hc1 x0 x1 x2 xs0).2.2.1, y ∈ pc.1.set :=
  View.cover_of_tiledL (kernelRun0_C (F := F) c i arg2 harg2 arg3 harg3 arg4 harg4 arg5 harg5 arg6 harg6 arg7 harg7 hc0 hc1 x0 x1 x2 xs0).2.2.1 S16x1.size (by sl_kernel_rfl) y
theorem cover0_C_4 (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i)
    (x0 : Vec F S1x2048x256 .f32) (x1 : Vec F S1x16x256 .f32) (x2 : Vec F S1x16x1 .f32) (xs0 : Vec F S16x1 .f32) (y : S1x16x1.Idx) :
    ∃ pc ∈ (kernelRun0_C (F := F) c i arg2 harg2 arg3 harg3 arg4 harg4 arg5 harg5 arg6 harg6 arg7 harg7 hc0 hc1 x0 x1 x2 xs0).2.1, y ∈ pc.1.set :=
  View.cover_of_tiledL (kernelRun0_C (F := F) c i arg2 harg2 arg3 harg3 arg4 harg4 arg5 harg5 arg6 harg6 arg7 harg7 hc0 hc1 x0 x1 x2 xs0).2.1 S1x16x1.size (by sl_kernel_rfl) y

/-! ## What a point leaves -/

/-- The body's run at point `t` on the memrefs the pipeline calls it with and the point's input blocks, per case. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => absurd ((hcond0_1 t).mp h) (by omega)) (iblk0 V c 0 t) (iblk0 V c 1 t) (iblk0 V c 2 t)
def runB (c : Dev nD) (t : Fin cfg0.N) (h0 : ¬t.val % 8 = 0) (h1 : ¬t.val % 8 = 7) (xs : Vec F S16x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs
def runC (c : Dev nD) (t : Fin cfg0.N) (h0 : ¬t.val % 8 = 0) (h1 : t.val % 8 = 7) (xs : Vec F S16x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs

/-- What point `t` leaves — the exponentials' buffer, the row-sum output's buffer, the scratch — at a first block
    (the row-sum buffer is not stored into: a placeholder nothing reads), -/
def caseA (c : Dev nD) (t : Fin cfg0.N) (h0 : t.val % 8 = 0) : Vec F S1x16x2048 .f32 × Vec F S1x16x1 .f32 × Vec F S16x1 .f32 :=
  (VO0_3.read (Elt F) (VO0_3.writes (Elt F) VO0_3.junk (runA V c t h0).1), VO0_4.read (Elt F) VO0_4.junk,
    VS0_0.read (Elt F) (VS0_0.writes (Elt F) VS0_0.junk (runA V c t h0).2.1))
/-- at a middle block, over the scratch `xs` the block before left, -/
def caseB (c : Dev nD) (t : Fin cfg0.N) (h0 : ¬t.val % 8 = 0) (h1 : ¬t.val % 8 = 7) (xs : Vec F S16x1 .f32) : Vec F S1x16x2048 .f32 × Vec F S1x16x1 .f32 × Vec F S16x1 .f32 :=
  (VO0_3.read (Elt F) (VO0_3.writes (Elt F) VO0_3.junk (runB V c t h0 h1 xs).1), VO0_4.read (Elt F) VO0_4.junk,
    VS0_0.read (Elt F) (VS0_0.writes (Elt F) VS0_0.junk (runB V c t h0 h1 xs).2.1))
/-- and at a last block. -/
def caseC (c : Dev nD) (t : Fin cfg0.N) (h0 : ¬t.val % 8 = 0) (h1 : t.val % 8 = 7) (xs : Vec F S16x1 .f32) : Vec F S1x16x2048 .f32 × Vec F S1x16x1 .f32 × Vec F S16x1 .f32 :=
  (VO0_3.read (Elt F) (VO0_3.writes (Elt F) VO0_3.junk (runC V c t h0 h1 xs).1), VO0_4.read (Elt F) (VO0_4.writes (Elt F) VO0_4.junk (runC V c t h0 h1 xs).2.1),
    VS0_0.read (Elt F) (VS0_0.writes (Elt F) VS0_0.junk (runC V c t h0 h1 xs).2.2.1))

/-- One point's step, from the scratch the point before left. -/
def stepAt0 (c : Dev nD) (t : Fin cfg0.N) (xs : Vec F S16x1 .f32) : Vec F S1x16x2048 .f32 × Vec F S1x16x1 .f32 × Vec F S16x1 .f32 :=
  if h0 : t.val % 8 = 0 then caseA V c t h0
  else if h1 : t.val % 8 = 7 then caseC V c t h0 h1 xs
  else caseB V c t h0 h1 xs

theorem stepAt0_A (c : Dev nD) (t : Fin cfg0.N) (xs : Vec F S16x1 .f32) (h0 : t.val % 8 = 0) : stepAt0 V c t xs = caseA V c t h0 := dif_pos h0
theorem stepAt0_B (c : Dev nD) (t : Fin cfg0.N) (xs : Vec F S16x1 .f32) (h0 : ¬t.val % 8 = 0) (h1 : ¬t.val % 8 = 7) : stepAt0 V c t xs = caseB V c t h0 h1 xs := (dif_neg h0).trans (dif_neg h1)
theorem stepAt0_C (c : Dev nD) (t : Fin cfg0.N) (xs : Vec F S16x1 .f32) (h0 : ¬t.val % 8 = 0) (h1 : t.val % 8 = 7) : stepAt0 V c t xs = caseC V c t h0 h1 xs := (dif_neg h0).trans (dif_pos h1)

/-- THE ACCUMULATION: what the outputs' buffers and the scratch hold after the body at position `n`. -/
def outsAt0 (c : Dev nD) : (n : ℕ) → n < cfg0.N → Vec F S1x16x2048 .f32 × Vec F S1x16x1 .f32 × Vec F S16x1 .f32
  | 0, hn => stepAt0 V c ⟨0, hn⟩ (VS0_0.read (Elt F) VS0_0.junk)
  | n + 1, hn => stepAt0 V c ⟨n + 1, hn⟩ (outsAt0 c n (Nat.lt_of_succ_lt hn)).2.2

theorem outsAt0_pos (c : Dev nD) (t : Fin cfg0.N) (hz : t.val ≠ 0) :
    outsAt0 V c t.val t.isLt = stepAt0 V c t (outsAt0 V c (t.val - 1) (Nat.lt_of_le_of_lt (Nat.sub_le _ _) t.isLt)).2.2 := by
  obtain ⟨n, hn⟩ := t
  cases n with
  | zero => exact absurd rfl hz
  | succ n => rfl

theorem outsAt0_A (c : Dev nD) (t : Fin cfg0.N) (h0 : t.val % 8 = 0) : outsAt0 V c t.val t.isLt = caseA V c t h0 := by
  obtain ⟨n, hn⟩ := t
  cases n with
  | zero => exact stepAt0_A V c _ _ h0
  | succ n => exact stepAt0_A V c _ _ h0
theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2.2 :=
  (outsAt0_pos V c t (fun hz => h0 (by rw [hz]))).trans (stepAt0_B V c t _ h0 h1)
theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2.2 :=
  (outsAt0_pos V c t (fun hz => h0 (by rw [hz]))).trans (stepAt0_C V c t _ h0 h1)

/-! ## The region's invariant -/

/-- Before the first point the scratch is at anything; after point `n` it holds that point's running row sums. The
    second kernel's staging buffers and the generator register ride along untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ restS0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the scratch at what the point before left (at anything before the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0]
    unfold caseA; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩⟩
      iapply ((runA V c t h0).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _)
      iexists _; iexact H4
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runA V c t h0).2.2 _ Set.univ _)
      isplitl [H0]; · iexact H0
      isplitl [H1]; · iexact H1
      isplitl [H2]; · iexact H2
      isplitl [H3]; · iexists _; iexact H3
      isplitl [H4]; · iexact H4
      isplitl [HS0]; · iexists _; iexact HS0
      iintro ⟨H0, H1, H2, ⟨%e3, H3⟩, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _)
      iexists _; iexact H4
  · have hz : t.val ≠ 0 := fun hz => h0 (by rw [hz])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold caseC; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((runC V c t h0 h1 _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold caseB; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((runB V c t h0 h1 _).2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scratch back at contents it no longer names. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 256 := N_0; omega)

end Region0

end Cert.KernelIdeal.Hand

end
-- ==== Proof.HandKI.Reg1.lean ====
/- The frame half of the second kernel of @main (the normalisation: every row of the first kernel's output
   block divided by that row's sum), stated at a PARAMETER `V`: the TensorCore's buffer contents when the
   kernel's pipeline is entered. Each window's block at a grid point, what the body leaves in the output
   window's staging buffer as a function of the two input blocks, the body's triple, the pipeline's proof data
   and its body obligation. Generic in the float type. -/
import proofs.«119697_j1176821039589_1_alg».proof.Proof.Gen.KernelIdeal.Launch
import proofs.«119697_j1176821039589_1_alg».proof.Proof.Gen.KernelIdeal.Skeleton
import proofs.«119697_j1176821039589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the second kernel's pipeline is entered
variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the row sums). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 x 16 x 16384 block: the rectangle of the load of the numerators and of the one store. -/
abbrev r1_0 : Rect S1x16x16384 := Rect.unit (s := S1x16x16384) ![0, 0, 0] S1x16x16384.size inb_S1x16x16384_S1x16x16384_0_0_0
/-- The whole 1 x 16 x 1 block: the rectangle of the load of the row sums. -/
abbrev r1_1 : Rect S1x16x1 := Rect.unit (s := S1x16x1) ![0, 0, 0] S1x16x1.size inb_S1x16x1_S1x16x1_0_0_0

/-! ## What the body leaves in the output window's buffer -/

/-- Window 2's staging buffer after the body, from the two input windows' blocks: its one store as a piece, the
    payload the quotient of the numerators' block by the row sums broadcast along the long axis. -/
def out1_2 (x0 : Vec F S1x16x16384 .f32) (x1 : Vec F S1x16x1 .f32) : Vec F S1x16x16384 .f32 :=
  View.canon [⟨r1_0, k1_pay1 (View.ld x0 r1_0) (View.ld x1 r1_1)⟩]

/-- The one store is through the whole block, so it covers the buffer. -/
theorem cover1_2 (p0 : Vec F S1x16x16384 .f32) (y : S1x16x16384.Idx) :
    ∃ pc ∈ ([⟨r1_0, p0⟩] : List (View.Piece (Elt F) S1x16x16384 .f32)), y ∈ pc.1.set :=
  View.cover_of_tiled [⟨r1_0, p0⟩] S1x16x16384.size (by rfl) y

/-! ## The body's triple -/

set_option maxHeartbeats 1000000 in
/-- The kernel body on whole staging memrefs, the inputs' at contents `x0`, `x1` and the output's at anything, runs to
    the continuation holding the inputs' as they were and the output's at `out1_2 x0 x1`. -/
theorem sound_kernel1 (c : Dev nD) (E : Set ℕ) (i : grid1.Coords)
    (arg0 : Memref sig .tc .vmem S1x16x16384 .f32) (harg0 : arg0.IsWhole)
    (arg1 : Memref sig .tc .vmem S1x16x1 .f32) (harg1 : arg1.IsWhole)
    (arg2 : Memref sig .tc .vmem S1x16x16384 .f32) (harg2 : arg2.IsWhole)
    (x0 : Vec F S1x16x16384 .f32) (x1 : Vec F S1x16x1 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__normalize_kernel i arg0 harg0 arg1 harg1 arg2 harg2) K := by
  simp only [cc1__normalize_kernel_eq_skeleton]; unfold cc1__normalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second kernel's pipeline on core `c`: the arrays as the pipeline finds them (`V`); after
    the body at point `t` each input's buffer at its block and the output's at `out1_2` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.HandKI.Run.lean ====
/- The whole program as a run of three segments — the host line that reshapes the strengths, the first kernel,
   the second kernel — with the contents of every unscoped buffer named at each boundary: a fold from the launch
   memory, a kernel's arrays at what its write-backs leave. Every weakly fair execution terminates and ends with
   every unscoped buffer at the last boundary's contents; the frame claim (the arguments end as launched) is read
   off that. -/
import proofs.«119697_j1176821039589_1_alg».proof.Proof.HandKI.Reg0
import proofs.«119697_j1176821039589_1_alg».proof.Proof.HandKI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host line (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the host line writes none, the first kernel only reads the memory and the keys
    through input windows, the second kernel touches none -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.HandKI.Entry.lean ====
/- What the first kernel finds when it is entered: the memory and the keys as launched (the host line writes neither),
   and the strengths re-laid as a column [32, 16, 1] by the host line. -/
import proofs.«119697_j1176821039589_1_alg».proof.Proof.HandKI.Run
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem V1_main_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

/-- The host line's result: the strengths broadcast along a new last axis of extent one. -/
theorem V1_main_v0 (c : Dev nD) : (V1 m ρ c main_v0 : (⟨S32x16x1, .f32⟩ : BufTy).Contents (Elt F))
    = broadcastInDim S32x16x1 ![0, 1] bcast_S32x16_S32x16x1_0_1 (m ((c : Thread nD τ).loc main_arg2) : (⟨S32x16, .f32⟩ : BufTy).Contents (Elt F)) := by
  dsimp only [V1, W1, W0, hostOps0]; after_results <;> rfl

/-- Read at an index: the column's entry (b, h, 0) is the strength (b, h). -/
theorem V1_main_v0_apply (c : Dev nD) (b : Fin 32) (h : Fin 16) :
    (V1 m ρ c main_v0 : (⟨S32x16x1, .f32⟩ : BufTy).Contents (Elt F)) (ix3 b h (0 : Fin 1))
      = (m ((c : Thread nD τ).loc main_arg2) : (⟨S32x16, .f32⟩ : BufTy).Contents (Elt F)) (ix2 b h) := by
  rw [V1_main_v0]
  generalize (m ((c : Thread nD τ).loc main_arg2) : (⟨S32x16, .f32⟩ : BufTy).Contents (Elt F)) = y
  exact broadcastInDim_apply _ bcast_S32x16_S32x16x1_0_1 y (ix3 b h (0 : Fin 1)) (ix2 b h) (fun a => match a with
    | ⟨0, _⟩ => by show b.val = if (32 : Nat) = 1 then 0 else b.val; rw [if_neg (by decide)]
    | ⟨1, _⟩ => by show h.val = if (16 : Nat) = 1 then 0 else h.val; rw [if_neg (by decide)])

end Cert.KernelIdeal.Hand

end
-- ==== Proof.HandKI.Reg0Pieces.lean ====
/- The first kernel's three control cases, read: the pieces each case's run found in the exponentials' buffer, in
   the row-sum output's buffer and in the scratch are the body's payloads of the point's three input blocks (the
   memory block, the keys block, the strengths block) and of what the scratch held. Whole-buffer loads read back
   what the whole-buffer stores before them left: the scratch cleared and then read is the zeros, the scratch
   updated and then read is the update. Generic in the float type. -/
import proofs.«119697_j1176821039589_1_alg».proof.Proof.HandKI.Reg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz0_2 : (![0, 0] : Fin 2 → Nat) = fun _ => 0 := funext fun a => by fin_cases a <;> rfl
theorem hz0_3 : (![0, 0, 0] : Fin 3 → Nat) = fun _ => 0 := funext fun a => by fin_cases a <;> rfl

/-! ## The block's exponentials and the scratch's update, as functions of the three input blocks -/

/-- The exponentials of the sharpened similarities of the 16 keys with the block's 2048 memory rows. -/
def Eblk (x0 : Vec F S1x2048x256 .f32) (x1 : Vec F S1x16x256 .f32) (x2 : Vec F S1x16x1 .f32) : FVec F S16x2048 .f32 :=
  k0_pay1 (k0_pay7 x0 x1) (k0_pay8 x2) (k0_pay10 x2) (k0_pay11 x2) (k0_pay12 x2)
/-- The scratch after the block: what it held, plus the block's row sums of the exponentials. -/
def accStep (x0 : Vec F S1x2048x256 .f32) (x1 : Vec F S1x16x256 .f32) (x2 : Vec F S1x16x1 .f32) (xs : Vec F S16x1 .f32) : FVec F S16x1 .f32 :=
  k0_pay4 (k0_pay7 x0 x1) (k0_pay8 x2) (k0_pay10 x2) (k0_pay11 x2) (k0_pay12 x2) xs

/-! ## The pieces each case's run found, read back -/

/-- First block: the exponentials' buffer. -/
theorem oA3_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i) (x0 : Vec F S1x2048x256 .f32) (x1 : Vec F S1x16x256 .f32) (x2 : Vec F S1x16x1 .f32) :
    VO0_3.read (Elt F) (VO0_3.writes (Elt F) VO0_3.junk (kernelRun0_A (F := F) c i arg2 harg2 arg3 harg3 arg4 harg4 arg5 harg5 arg6 harg6 arg7 harg7 hc0 hc1 x0 x1 x2).1)
      = k0_pay2 (k0_pay7 x0 x1) (k0_pay8 x2) (k0_pay10 x2) (k0_pay11 x2) (k0_pay12 x2) := by
  rw [View.read_writes_eq_canon _ _ _ (cover0_A_3 c i arg2 harg2 arg3 harg3 arg4 harg4 arg5 harg5 arg6 harg6 arg7 harg7 hc0 hc1 x0 x1 x2)]
  unfold kernelRun0_A
  dsimp only
  rw [View.canon_cons_unit_zero hz0_3]
  sl_unfold_words
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-- First block: the scratch, cleared and then updated. -/
theorem sA_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : cond0_0 i) (hc1 : ¬cond0_1 i) (x0 : Vec F S1x2048x256 .f32) (x1 : Vec F S1x16x256 .f32) (x2 : Vec F S1x16x1 .f32) :
    VS0_0.read (Elt F) (VS0_0.writes (Elt F) VS0_0.junk (kernelRun0_A (F := F) c i arg2 harg2 arg3 harg3 arg4 harg4 arg5 harg5 arg6 harg6 arg7 harg7 hc0 hc1 x0 x1 x2).2.1)
      = accStep x0 x1 x2 (k0_pay3 (F := F)) := by
  rw [View.read_writes_eq_canon _ _ _ (scover0_A c i arg2 harg2 arg3 harg3 arg4 harg4 arg5 harg5 arg6 harg6 arg7 harg7 hc0 hc1 x0 x1 x2)]
  unfold kernelRun0_A
  dsimp only
  rw [View.canon_cons_unit_zero hz0_2]
  unfold accStep
  sl_unfold_words
  rw [View.readCov_unit_zero (S := S16x1) _ hz0_2]
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-- Middle block: the exponentials' buffer. -/
theorem oB3_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i) (x0 : Vec F S1x2048x256 .f32) (x1 : Vec F S1x16x256 .f32) (x2 : Vec F S1x16x1 .f32) (xs0 : Vec F S16x1 .f32) :
    VO0_3.read (Elt F) (VO0_3.writes (Elt F) VO0_3.junk (kernelRun0_B (F := F) c i arg2 harg2 arg3 harg3 arg4 harg4 arg5 harg5 arg6 harg6 arg7 harg7 hc0 hc1 x0 x1 x2 xs0).1)
      = k0_pay2 (k0_pay7 x0 x1) (k0_pay8 x2) (k0_pay10 x2) (k0_pay11 x2) (k0_pay12 x2) := by
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  rw [View.canon_cons_unit_zero hz0_3]
  sl_unfold_words
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-- Middle block: the scratch, updated over what it held. -/
theorem sB_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : ¬cond0_1 i) (x0 : Vec F S1x2048x256 .f32) (x1 : Vec F S1x16x256 .f32) (x2 : Vec F S1x16x1 .f32) (xs0 : Vec F S16x1 .f32) :
    VS0_0.read (Elt F) (VS0_0.writes (Elt F) VS0_0.junk (kernelRun0_B (F := F) c i arg2 harg2 arg3 harg3 arg4 harg4 arg5 harg5 arg6 harg6 arg7 harg7 hc0 hc1 x0 x1 x2 xs0).2.1)
      = accStep x0 x1 x2 xs0 := by
  rw [View.read_writes_eq_canon _ _ _ (scover0_B c i arg2 harg2 arg3 harg3 arg4 harg4 arg5 harg5 arg6 harg6 arg7 harg7 hc0 hc1 x0 x1 x2 xs0)]
  unfold kernelRun0_B
  dsimp only
  rw [View.canon_cons_unit_zero hz0_2]
  unfold accStep
  sl_unfold_words
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-- Last block: the exponentials' buffer. -/
theorem oC3_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i) (x0 : Vec F S1x2048x256 .f32) (x1 : Vec F S1x16x256 .f32) (x2 : Vec F S1x16x1 .f32) (xs0 : Vec F S16x1 .f32) :
    VO0_3.read (Elt F) (VO0_3.writes (Elt F) VO0_3.junk (kernelRun0_C (F := F) c i arg2 harg2 arg3 harg3 arg4 harg4 arg5 harg5 arg6 harg6 arg7 harg7 hc0 hc1 x0 x1 x2 xs0).1)
      = k0_pay2 (k0_pay7 x0 x1) (k0_pay8 x2) (k0_pay10 x2) (k0_pay11 x2) (k0_pay12 x2) := by
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  rw [View.canon_cons_unit_zero hz0_3]
  sl_unfold_words
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-- Last block: the scratch, updated over what it held. -/
theorem sC_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i) (x0 : Vec F S1x2048x256 .f32) (x1 : Vec F S1x16x256 .f32) (x2 : Vec F S1x16x1 .f32) (xs0 : Vec F S16x1 .f32) :
    VS0_0.read (Elt F) (VS0_0.writes (Elt F) VS0_0.junk (kernelRun0_C (F := F) c i arg2 harg2 arg3 harg3 arg4 harg4 arg5 harg5 arg6 harg6 arg7 harg7 hc0 hc1 x0 x1 x2 xs0).2.2.1)
      = accStep x0 x1 x2 xs0 := by
  rw [View.read_writes_eq_canon _ _ _ (scover0_C c i arg2 harg2 arg3 harg3 arg4 harg4 arg5 harg5 arg6 harg6 arg7 harg7 hc0 hc1 x0 x1 x2 xs0)]
  unfold kernelRun0_C
  dsimp only
  sl_unfold_words
  rw [View.canon_cons_unit_zero hz0_2]
  unfold accStep
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-- Last block: the row-sum output's buffer receives the updated scratch, as a 1 x 16 x 1 block. -/
theorem oC4_eq (c : Dev nD) (i : grid0.Coords) (arg2 : Memref sig .tc .vmem S1x2048x256 .f32) (harg2 : arg2.IsWhole) (arg3 : Memref sig .tc .vmem S1x16x256 .f32) (harg3 : arg3.IsWhole) (arg4 : Memref sig .tc .vmem S1x16x1 .f32) (harg4 : arg4.IsWhole) (arg5 : Memref sig .tc .vmem S1x16x2048 .f32) (harg5 : arg5.IsWhole) (arg6 : Memref sig .tc .vmem S1x16x1 .f32) (harg6 : arg6.IsWhole) (arg7 : Memref sig .tc .vmem S16x1 .f32) (harg7 : arg7.IsWhole) (hc0 : ¬cond0_0 i) (hc1 : cond0_1 i) (x0 : Vec F S1x2048x256 .f32) (x1 : Vec F S1x16x256 .f32) (x2 : Vec F S1x16x1 .f32) (xs0 : Vec F S16x1 .f32) :
    VO0_4.read (Elt F) (VO0_4.writes (Elt F) VO0_4.junk (kernelRun0_C (F := F) c i arg2 harg2 arg3 harg3 arg4 harg4 arg5 harg5 arg6 harg6 arg7 harg7 hc0 hc1 x0 x1 x2 xs0).2.1)
      = k0_pay5 (accStep x0 x1 x2 xs0) := by
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  rw [View.canon_cons_unit_zero hz0_3]
  unfold accStep
  sl_unfold_words
  rw [View.readCov_unit_zero (S := S16x1) _ hz0_2]
  simp only [View.readAt_eq_ld, harg2.read_unread, harg3.read_unread, harg4.read_unread, harg7.read_unread,
    View.ld_unit_zero (S := S1x2048x256) hz0_3, View.ld_unit_zero (S := S1x16x256) hz0_3, View.ld_unit_zero (S := S1x16x1) hz0_3,
    View.ld_unit_zero (S := S16x1) hz0_2]

/-! ## One point's step, read -/

section Region0
variable (V : (c : Dev nD) → (b : Ref sig .tc) → Buf (Elt F) ((c : Thread nD τ).loc b))

/-! The three runs at point `t`'s memrefs and input blocks. -/

theorem runA_out (c : Dev nD) (t : Fin cfg0.N) (h0 : t.val % 8 = 0) :
    VO0_3.read (Elt F) (VO0_3.writes (Elt F) VO0_3.junk (runA V c t h0).1) = k0_pay2 (k0_pay7 (iblk0 V c 0 t) (iblk0 V c 1 t)) (k0_pay8 (iblk0 V c 2 t)) (k0_pay10 (iblk0 V c 2 t)) (k0_pay11 (iblk0 V c 2 t)) (k0_pay12 (iblk0 V c 2 t)) := by
  unfold runA; exact oA3_eq _ _ _ _ _ _ _ _ _ _ _ _ _ _ _ _ _ _ _
theorem runA_acc (c : Dev nD) (t : Fin cfg0.N) (h0 : t.val % 8 = 0) :
    VS0_0.read (Elt F) (VS0_0.writes (Elt F) VS0_0.junk (runA V c t h0).2.1) = accStep (iblk0 V c 0 t) (iblk0 V c 1 t) (iblk0 V c 2 t) (k0_pay3 (F := F)) := by
  unfold runA; exact sA_eq _ _ _ _ _ _ _ _ _ _ _ _ _ _ _ _ _ _ _
theorem runB_out (c : Dev nD) (t : Fin cfg0.N) (h0 : ¬t.val % 8 = 0) (h1 : ¬t.val % 8 = 7) (xs : Vec F S16x1 .f32) :
    VO0_3.read (Elt F) (VO0_3.writes (Elt F) VO0_3.junk (runB V c t h0 h1 xs).1) = k0_pay2 (k0_pay7 (iblk0 V c 0 t) (iblk0 V c 1 t)) (k0_pay8 (iblk0 V c 2 t)) (k0_pay10 (iblk0 V c 2 t)) (k0_pay11 (iblk0 V c 2 t)) (k0_pay12 (iblk0 V c 2 t)) := by
  unfold runB; exact oB3_eq _ _ _ _ _ _ _ _ _ _ _ _ _ _ _ _ _ _ _ _
theorem runB_acc (c : Dev nD) (t : Fin cfg0.N) (h0 : ¬t.val % 8 = 0) (h1 : ¬t.val % 8 = 7) (xs : Vec F S16x1 .f32) :
    VS0_0.read (Elt F) (VS0_0.writes (Elt F) VS0_0.junk (runB V c t h0 h1 xs).2.1) = accStep (iblk0 V c 0 t) (iblk0 V c 1 t) (iblk0 V c 2 t) xs := by
  unfold runB; exact sB_eq _ _ _ _ _ _ _ _ _ _ _ _ _ _ _ _ _ _ _ _
theorem runC_out (c : Dev nD) (t : Fin cfg0.N) (h0 : ¬t.val % 8 = 0) (h1 : t.val % 8 = 7) (xs : Vec F S16x1 .f32) :
    VO0_3.read (Elt F) (VO0_3.writes (Elt F) VO0_3.junk (runC V c t h0 h1 xs).1) = k0_pay2 (k0_pay7 (iblk0 V c 0 t) (iblk0 V c 1 t)) (k0_pay8 (iblk0 V c 2 t)) (k0_pay10 (iblk0 V c 2 t)) (k0_pay11 (iblk0 V c 2 t)) (k0_pay12 (iblk0 V c 2 t)) := by
  unfold runC; exact oC3_eq _ _ _ _ _ _ _ _ _ _ _ _ _ _ _ _ _ _ _ _
theorem runC_acc (c : Dev nD) (t : Fin cfg0.N) (h0 : ¬t.val % 8 = 0) (h1 : t.val % 8 = 7) (xs : Vec F S16x1 .f32) :
    VS0_0.read (Elt F) (VS0_0.writes (Elt F) VS0_0.junk (runC V c t h0 h1 xs).2.2.1) = accStep (iblk0 V c 0 t) (iblk0 V c 1 t) (iblk0 V c 2 t) xs := by
  unfold runC; exact sC_eq _ _ _ _ _ _ _ _ _ _ _ _ _ _ _ _ _ _ _ _
theorem runC_rowsum (c : Dev nD) (t : Fin cfg0.N) (h0 : ¬t.val % 8 = 0) (h1 : t.val % 8 = 7) (xs : Vec F S16x1 .f32) :
    VO0_4.read (Elt F) (VO0_4.writes (Elt F) VO0_4.junk (runC V c t h0 h1 xs).2.1) = k0_pay5 (accStep (iblk0 V c 0 t) (iblk0 V c 1 t) (iblk0 V c 2 t) xs) := by
  unfold runC; exact oC4_eq _ _ _ _ _ _ _ _ _ _ _ _ _ _ _ _ _ _ _ _

/-- Whatever the case, the point leaves the block's exponentials (as a 1 x 16 x 2048 block) in the first output's buffer. -/
theorem stepAt0_out (c : Dev nD) (t : Fin cfg0.N) (xs : Vec F S16x1 .f32) :
    (stepAt0 V c t xs).1 = k0_pay2 (k0_pay7 (iblk0 V c 0 t) (iblk0 V c 1 t)) (k0_pay8 (iblk0 V c 2 t)) (k0_pay10 (iblk0 V c 2 t)) (k0_pay11 (iblk0 V c 2 t)) (k0_pay12 (iblk0 V c 2 t)) := by
  by_cases h0 : t.val % 8 = 0
  · rw [stepAt0_A V c t xs h0]; unfold caseA; dsimp only
    exact runA_out V c t h0
  · by_cases h1 : t.val % 8 = 7
    · rw [stepAt0_C V c t xs h0 h1]; unfold caseC; dsimp only
      exact runC_out V c t h0 h1 xs
    · rw [stepAt0_B V c t xs h0 h1]; unfold caseB; dsimp only
      exact runB_out V c t h0 h1 xs

/-- At the first block of a batch entry the scratch restarts from zeros: it ends at the block's row sums over zeros. -/
theorem stepAt0_acc_first (c : Dev nD) (t : Fin cfg0.N) (xs : Vec F S16x1 .f32) (h0 : t.val % 8 = 0) :
    (stepAt0 V c t xs).2.2 = accStep (iblk0 V c 0 t) (iblk0 V c 1 t) (iblk0 V c 2 t) (k0_pay3 (F := F)) := by
  rw [stepAt0_A V c t xs h0]; unfold caseA; dsimp only
  exact runA_acc V c t h0

/-- At any later block the scratch ends at the block's row sums over what it held. -/
theorem stepAt0_acc_next (c : Dev nD) (t : Fin cfg0.N) (xs : Vec F S16x1 .f32) (h0 : ¬t.val % 8 = 0) :
    (stepAt0 V c t xs).2.2 = accStep (iblk0 V c 0 t) (iblk0 V c 1 t) (iblk0 V c 2 t) xs := by
  by_cases h1 : t.val % 8 = 7
  · rw [stepAt0_C V c t xs h0 h1]; unfold caseC; dsimp only
    exact runC_acc V c t h0 h1 xs
  · rw [stepAt0_B V c t xs h0 h1]; unfold caseB; dsimp only
    exact runB_acc V c t h0 h1 xs

/-- At the last block of a batch entry the row-sum output's buffer receives the scratch as it then stands. -/
theorem stepAt0_rowsum (c : Dev nD) (t : Fin cfg0.N) (xs : Vec F S16x1 .f32) (h0 : ¬t.val % 8 = 0) (h1 : t.val % 8 = 7) :
    (stepAt0 V c t xs).2.1 = k0_pay5 (accStep (iblk0 V c 0 t) (iblk0 V c 1 t) (iblk0 V c 2 t) xs) := by
  rw [stepAt0_C V c t xs h0 h1]; unfold caseC; dsimp only
  exact runC_rowsum V c t h0 h1 xs

end Region0

end Cert.KernelIdeal.Hand

end
-- ==== Proof.Spec.lean ====
/-
  The specification of content addressing with a sharpened softmax, at the ideal values (a float an
  extended real, every operation exact): cosine similarity of each key with each memory row, scaled by
  the softplus of the key's strength, exponentiated, and normalised by the row sum over the memory rows.
  Stated over curried coordinate functions, with no program imported.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The stabiliser added under the square roots and to the product of the norms: the float word
    `0x3727C5AC` (about 1e-5), kept as the word. -/
def eps : EReal := Ideal.ofBits .f32 0x3727C5AC#32

section
variable (mem : Fin 32 → Fin 16384 → Fin 256 → EReal) (keys : Fin 32 → Fin 16 → Fin 256 → EReal)
  (str : Fin 32 → Fin 16 → EReal)

/-- The inner product of key `(b, h)` with memory row `(b, j)`. -/
def dot (b : Fin 32) (h : Fin 16) (j : Fin 16384) : EReal := ∑ w : Fin 256, keys b h w * mem b j w

/-- The squared norm of key `(b, h)`. -/
def ksq (b : Fin 32) (h : Fin 16) : EReal := ∑ w : Fin 256, keys b h w * keys b h w

/-- The squared norm of memory row `(b, j)`. -/
def msq (b : Fin 32) (j : Fin 16384) : EReal := ∑ w : Fin 256, mem b j w * mem b j w

/-- The product of the two stabilised norms. -/
def norm (b : Fin 32) (h : Fin 16) (j : Fin 16384) : EReal :=
  Ideal.sqrt (ksq keys b h + eps) * Ideal.sqrt (msq mem b j + eps)

/-- The stabilised cosine similarity. -/
def act (b : Fin 32) (h : Fin 16) (j : Fin 16384) : EReal :=
  Ideal.div (dot mem keys b h j) (norm mem keys b h j + eps)

/-- The softplus of the strength, `max x 0 + log (1 + exp (-|x|))`, spelled operation by operation. -/
def sp (b : Fin 32) (h : Fin 16) : EReal :=
  max (str b h) 0 + Ideal.log1p (Ideal.exp (0 - max (str b h - 0) (-(str b h - 0))))

/-- The sharpened similarity. -/
def sharp (b : Fin 32) (h : Fin 16) (j : Fin 16384) : EReal := act mem keys b h j * sp str b h

/-- Its exponential. -/
def E (b : Fin 32) (h : Fin 16) (j : Fin 16384) : EReal := Ideal.exp (sharp mem keys str b h j)

/-- The result: the exponential over the sum of the exponentials along the memory rows. -/
def out (b : Fin 32) (h : Fin 16) (j : Fin 16384) : EReal :=
  Ideal.div (E mem keys str b h j) (∑ j' : Fin 16384, E mem keys str b h j')

end

end Cert.Spec

end
-- ==== Proof.HandKI.Reg0Value.lean ====
/- From blocks to arrays for the first kernel, at the ideal floats. Grid point t = 8 b + k holds batch entry b and
   the k-th block of 2048 memory rows. What a point writes back into the exponentials' array is its block of ONE
   function of the arrays the kernel is entered with: entry (b, h, j) is the exponential of the sharpened
   similarity of key (b, h) with memory row (b, j); the 256 blocks tile that array. The scratch carries the
   running row sums along the eight blocks of a batch entry, so what the last block of a batch entry writes back
   into the row sums' array is the sum over all 16384 memory rows; those 32 blocks tile that array. The body's
   payloads read at an index are taken as hypotheses here. -/
import proofs.«119697_j1176821039589_1_alg».proof.Proof.HandKI.Reg0Pieces
import proofs.«119697_j1176821039589_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's payloads at an index, as hypotheses -/

/-- The body's arithmetic read at an index: over three input blocks that are batch entry `b`'s keys and strengths and
    its `k`-th block of memory rows, the block of exponentials and the scratch's update are the specification's
    terms; the cleared scratch is zero; the two casts between a block and its unit-axis form move no entry. -/
structure PayloadAt : Prop where
  Eblk_apply : ∀ (mem : Fin 32 → Fin 16384 → Fin 256 → EReal) (keys : Fin 32 → Fin 16 → Fin 256 → EReal)
    (str : Fin 32 → Fin 16 → EReal) (b : Fin 32) (k : Fin 8) (x0 : Vec Ideal S1x2048x256 .f32)
    (x1 : Vec Ideal S1x16x256 .f32) (x2 : Vec Ideal S1x16x1 .f32),
    (∀ (q : Fin 2048) (w : Fin 256), x0 (ix3 0 q w) = mem b ⟨2048 * k.val + q.val, by omega⟩ w) →
    (∀ (h : Fin 16) (w : Fin 256), x1 (ix3 0 h w) = keys b h w) → (∀ h : Fin 16, x2 (ix3 0 h 0) = str b h) →
    ∀ (h : Fin 16) (q : Fin 2048),
      Eblk (F := Ideal) x0 x1 x2 (ix2 h q) = Cert.Spec.E mem keys str b h ⟨2048 * k.val + q.val, by omega⟩
  accStep_apply : ∀ (mem : Fin 32 → Fin 16384 → Fin 256 → EReal) (keys : Fin 32 → Fin 16 → Fin 256 → EReal)
    (str : Fin 32 → Fin 16 → EReal) (b : Fin 32) (k : Fin 8) (x0 : Vec Ideal S1x2048x256 .f32)
    (x1 : Vec Ideal S1x16x256 .f32) (x2 : Vec Ideal S1x16x1 .f32),
    (∀ (q : Fin 2048) (w : Fin 256), x0 (ix3 0 q w) = mem b ⟨2048 * k.val + q.val, by omega⟩ w) →
    (∀ (h : Fin 16) (w : Fin 256), x1 (ix3 0 h w) = keys b h w) → (∀ h : Fin 16, x2 (ix3 0 h 0) = str b h) →
    ∀ (xs : Vec Ideal S16x1 .f32) (h : Fin 16),
      accStep (F := Ideal) x0 x1 x2 xs (ix2 h 0)
        = xs (ix2 h 0) + ∑ q : Fin 2048, Cert.Spec.E mem keys str b h ⟨2048 * k.val + q.val, by omega⟩
  pay3_apply : ∀ h : Fin 16, k0_pay3 (F := Ideal) (ix2 h 0) = 0
  pay5_apply : ∀ (v : Vec Ideal S16x1 .f32) (h : Fin 16), k0_pay5 (F := Ideal) v (ix3 0 h 0) = v (ix2 h 0)
  pay2_apply : ∀ (v28 : FVec Ideal S16x2048 .f32) (v30 : FVec Ideal S16x1 .f32) (v33 : IVec S16x1 1)
    (v35 v40 : FVec Ideal S16x1 .f32) (h : Fin 16) (q : Fin 2048),
    k0_pay2 (F := Ideal) v28 v30 v33 v35 v40 (ix3 0 h q) = k0_pay1 (F := Ideal) v28 v30 v33 v35 v40 (ix2 h q)

/-! ## Where each window is at a point -/

/-- The printed index maps, decided over the 256 grid points: at point `t = 8 b + k` the memory window is on block
    `(b, k, 0)`, the keys', the strengths' and the row sums' windows on block `(b, 0, 0)`, the exponentials' window
    on block `(b, 0, k)`. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8
    ∧ win0_4.index t (0 : Fin 3) = t.val / 8 ∧ win0_4.index t (1 : Fin 3) = 0 ∧ win0_4.index t (2 : Fin 3) = 0 :=
  (by decide +kernel : ∀ t : Fin grid0.N, _)

/-- A point's batch entry and its block of memory rows. -/
theorem pt0_lt (t : Fin cfg0.N) : t.val / 8 < 32 ∧ t.val % 8 < 8 := by
  have hN : grid0.N = 256 := N_0
  have ht : t.val < grid0.N := t.isLt
  omega

section
variable (V : (c : Dev nD) → (b : Ref sig .tc) → Buf (Elt Ideal) ((c : Thread nD τ).loc b))

/-- The memory rows, the keys and the strengths as the region finds them, by coordinates. -/
abbrev mem0 (c : Dev nD) : Fin 32 → Fin 16384 → Fin 256 → EReal := fun b j w => V c main_arg0 (ix3 b j w)
abbrev keys0 (c : Dev nD) : Fin 32 → Fin 16 → Fin 256 → EReal := fun b h w => V c main_arg1 (ix3 b h w)
abbrev str0 (c : Dev nD) : Fin 32 → Fin 16 → EReal := fun b h => V c main_v0 (ix3 b h (0 : Fin 1))

/-! ## The input blocks are the arrays' entries -/

/-- The memory block at point `t`: rows `2048 k ..` of batch entry `b`. -/
theorem iblk0_0_apply (c : Dev nD) (t : Fin cfg0.N) (q : Fin 2048) (w : Fin 256) :
    iblk0 V c 0 t (ix3 (0 : Fin 1) q w)
      = mem0 V c ⟨t.val / 8, (pt0_lt t).1⟩ ⟨2048 * (t.val % 8) + q.val, by have := (pt0_lt t).2; omega⟩ w := by
  obtain ⟨e00, e01, e02, -⟩ := idx_facts0 t
  show V c main_arg0 (((cfg0.win 0).blk t).view.emb (ix3 (0 : Fin 1) q w)) = _
  refine congrArg (V c main_arg0) (funext fun a => Fin.ext ?_)
  match a with
  | ⟨0, _⟩ => show win0_0.index t (0 : Fin 3) * 1 + 1 * 0 = t.val / 8; omega
  | ⟨1, _⟩ => show win0_0.index t (1 : Fin 3) * 2048 + 1 * q.val = 2048 * (t.val % 8) + q.val; omega
  | ⟨2, _⟩ => show win0_0.index t (2 : Fin 3) * 256 + 1 * w.val = w.val; omega

/-- The keys block at point `t`: batch entry `b`'s keys. -/
theorem iblk0_1_apply (c : Dev nD) (t : Fin cfg0.N) (h : Fin 16) (w : Fin 256) :
    iblk0 V c 1 t (ix3 (0 : Fin 1) h w) = keys0 V c ⟨t.val / 8, (pt0_lt t).1⟩ h w := by
  obtain ⟨-, -, -, e10, e11, e12, -⟩ := idx_facts0 t
  show V c main_arg1 (((cfg0.win 1).blk t).view.emb (ix3 (0 : Fin 1) h w)) = _
  refine congrArg (V c main_arg1) (funext fun a => Fin.ext ?_)
  match a with
  | ⟨0, _⟩ => show win0_1.index t (0 : Fin 3) * 1 + 1 * 0 = t.val / 8; omega
  | ⟨1, _⟩ => show win0_1.index t (1 : Fin 3) * 16 + 1 * h.val = h.val; omega
  | ⟨2, _⟩ => show win0_1.index t (2 : Fin 3) * 256 + 1 * w.val = w.val; omega

/-- The strengths block at point `t`: batch entry `b`'s strengths. -/
theorem iblk0_2_apply (c : Dev nD) (t : Fin cfg0.N) (h : Fin 16) :
    iblk0 V c 2 t (ix3 (0 : Fin 1) h (0 : Fin 1)) = str0 V c ⟨t.val / 8, (pt0_lt t).1⟩ h := by
  obtain ⟨-, -, -, -, -, -, e20, e21, e22, -⟩ := idx_facts0 t
  show V c main_v0 (((cfg0.win 2).blk t).view.emb (ix3 (0 : Fin 1) h (0 : Fin 1))) = _
  refine congrArg (V c main_v0) (funext fun a => Fin.ext ?_)
  match a with
  | ⟨0, _⟩ => show win0_2.index t (0 : Fin 3) * 1 + 1 * 0 = t.val / 8; omega
  | ⟨1, _⟩ => show win0_2.index t (1 : Fin 3) * 16 + 1 * h.val = h.val; omega
  | ⟨2, _⟩ => show win0_2.index t (2 : Fin 3) * 1 + 1 * 0 = 0; omega

end

/-! ## The exponentials' array -/

/-- The specification's exponential depends only on the values of its coordinates. -/
theorem E_congr (m : Fin 32 → Fin 16384 → Fin 256 → EReal) (k : Fin 32 → Fin 16 → Fin 256 → EReal) (s : Fin 32 → Fin 16 → EReal)
    {b b' : Fin 32} {h h' : Fin 16} {j j' : Fin 16384} (eb : b.val = b'.val) (eh : h.val = h'.val) (ej : j.val = j'.val) :
    Cert.Spec.E m k s b h j = Cert.Spec.E m k s b' h' j' := by
  obtain rfl := Fin.ext eb; obtain rfl := Fin.ext eh; obtain rfl := Fin.ext ej; rfl

section
variable (V : (c : Dev nD) → (b : Ref sig .tc) → Buf (Elt Ideal) ((c : Thread nD τ).loc b))

/-- Every entry of the exponentials' array as ONE function of the arrays the region is entered with. -/
def expArr0 (c : Dev nD) : S32x16x16384.Idx → Elt Ideal .f32 :=
  fun i => Cert.Spec.E (mem0 V c) (keys0 V c) (str0 V c) ⟨(i 0).val, (i 0).isLt⟩ ⟨(i 1).val, (i 1).isLt⟩ ⟨(i 2).val, (i 2).isLt⟩

/-- Whatever the point, it leaves the block's exponentials in the first output's buffer. -/
theorem outs0_out (c : Dev nD) (t : Fin cfg0.N) :
    (outsAt0 V c t.val t.isLt).1
      = k0_pay2 (k0_pay7 (iblk0 V c 0 t) (iblk0 V c 1 t)) (k0_pay8 (iblk0 V c 2 t)) (k0_pay10 (iblk0 V c 2 t)) (k0_pay11 (iblk0 V c 2 t)) (k0_pay12 (iblk0 V c 2 t)) := by
  obtain ⟨n, hn⟩ := t
  cases n with
  | zero => exact stepAt0_out V c _ _
  | succ n => exact stepAt0_out V c _ _

/-- What point `t` writes back into the exponentials' array is block `t` of `expArr0`. -/
theorem flushed0_3_eq (P : PayloadAt) (c : Dev nD) (t : Fin cfg0.N) :
    (dat0 (F := Ideal) V c).flushed 3 t = ((cfg0.win 3).blk t).view.read (Elt Ideal) (expArr0 V c) := by
  show (cfg0.win 3).cut (grid0.coords t) ((dat0 (F := Ideal) V c).after 3 t) = _
  rw [after0_3, outs0_out]
  obtain ⟨-, -, -, -, -, -, -, -, -, e30, e31, e32, -⟩ := idx_facts0 t
  refine funext fun (j : S1x16x2048.Idx) => ?_
  obtain ⟨u, h, q, rfl⟩ : ∃ (u : Fin 1) (h : Fin 16) (q : Fin 2048), j = ix3 u h q := ⟨j 0, j 1, j 2, eq_ix3 j⟩
  obtain rfl : u = 0 := Subsingleton.elim _ _
  show k0_pay2 (k0_pay7 (iblk0 V c 0 t) (iblk0 V c 1 t)) (k0_pay8 (iblk0 V c 2 t)) (k0_pay10 (iblk0 V c 2 t)) (k0_pay11 (iblk0 V c 2 t)) (k0_pay12 (iblk0 V c 2 t)) (ix3 (0 : Fin 1) h q)
      = expArr0 V c (((cfg0.win 3).blk t).view.emb (ix3 (0 : Fin 1) h q))
  refine (P.pay2_apply _ _ _ _ _ h q).trans ?_
  refine (P.Eblk_apply (mem0 V c) (keys0 V c) (str0 V c) ⟨t.val / 8, (pt0_lt t).1⟩ ⟨t.val % 8, (pt0_lt t).2⟩
    (iblk0 V c 0 t) (iblk0 V c 1 t) (iblk0 V c 2 t) (iblk0_0_apply V c t) (iblk0_1_apply V c t) (iblk0_2_apply V c t) h q).trans ?_
  unfold expArr0
  refine E_congr _ _ _ ?_ ?_ ?_
  · show t.val / 8 = win0_3.index t (0 : Fin 3) * 1 + 1 * 0; omega
  · show h.val = win0_3.index t (1 : Fin 3) * 16 + 1 * h.val; omega
  · show 2048 * (t.val % 8) + q.val = win0_3.index t (2 : Fin 3) * 2048 + 1 * q.val; omega

/-- An index of the exponentials' array is in point `t`'s block iff each coordinate is in the block's range on its axis. -/
theorem mem_blk0_3 (t : Fin cfg0.N) (i : S32x16x16384.Idx) :
    i ∈ ((cfg0.win 3).blk t).view.set ↔ ∀ a : Fin 3, win0_3.index t a * S1x16x2048.size a ≤ (i a).val ∧ (i a).val < win0_3.index t a * S1x16x2048.size a + S1x16x2048.size a := by
  show i ∈ ((View.whole main_v1_0).slice (win0_3.rect t)).set ↔ _
  rw [View.set_slice_whole, Rect.mem_set_unit]
  exact Iff.rfl

/-- Every index `(b, h, j)` of the exponentials' array is in the block of point `8 b + j / 2048`. -/
theorem cover0_3 (i : S32x16x16384.Idx) :
    ∃ t : Fin cfg0.N, (cfg0.win 3).flush t = true ∧ i ∈ ((cfg0.win 3).blk t).view.set := by
  have hi0 : (i 0).val < 32 := (i 0).isLt
  have hi1 : (i 1).val < 16 := (i 1).isLt
  have hi2 : (i 2).val < 16384 := (i 2).isLt
  have hN : grid0.N = 256 := N_0
  have ht : 8 * (i 0).val + (i 2).val / 2048 < cfg0.N := by show _ < grid0.N; omega
  obtain ⟨-, -, -, -, -, -, -, -, -, e30, e31, e32, -⟩ := idx_facts0 ⟨8 * (i 0).val + (i 2).val / 2048, ht⟩
  have e30' : win0_3.index ⟨8 * (i 0).val + (i 2).val / 2048, ht⟩ (0 : Fin 3) = (8 * (i 0).val + (i 2).val / 2048) / 8 := e30
  have e32' : win0_3.index ⟨8 * (i 0).val + (i 2).val / 2048, ht⟩ (2 : Fin 3) = (8 * (i 0).val + (i 2).val / 2048) % 8 := e32
  refine ⟨⟨8 * (i 0).val + (i 2).val / 2048, ht⟩, flush0_3 _, ?_⟩
  rw [mem_blk0_3]
  intro a
  match a with
  | ⟨0, _⟩ => show win0_3.index ⟨8 * (i 0).val + (i 2).val / 2048, ht⟩ (0 : Fin 3) * 1 ≤ (i 0).val ∧ (i 0).val < win0_3.index ⟨8 * (i 0).val + (i 2).val / 2048, ht⟩ (0 : Fin 3) * 1 + 1; omega
  | ⟨1, _⟩ => show win0_3.index ⟨8 * (i 0).val + (i 2).val / 2048, ht⟩ (1 : Fin 3) * 16 ≤ (i 1).val ∧ (i 1).val < win0_3.index ⟨8 * (i 0).val + (i 2).val / 2048, ht⟩ (1 : Fin 3) * 16 + 16; omega
  | ⟨2, _⟩ => show win0_3.index ⟨8 * (i 0).val + (i 2).val / 2048, ht⟩ (2 : Fin 3) * 2048 ≤ (i 2).val ∧ (i 2).val < win0_3.index ⟨8 * (i 0).val + (i 2).val / 2048, ht⟩ (2 : Fin 3) * 2048 + 2048; omega

/-- The exponentials' array after the region's last point: entry `(b, h, j)` is the exponential of the sharpened
    similarity of key `(b, h)` with memory row `(b, j)`, of the arrays as the region found them. -/
theorem final0_3 (P : PayloadAt) (c : Dev nD) :
    (dat0 (F := Ideal) V c).arrAt 3 cfg0.N
      = fun i : S32x16x16384.Idx => Cert.Spec.E (mem0 V c) (keys0 V c) (str0 V c) ⟨(i 0).val, (i 0).isLt⟩ ⟨(i 1).val, (i 1).isLt⟩ ⟨(i 2).val, (i 2).isLt⟩ :=
  (dat0 (F := Ideal) V c).arrAt_eq_of_cover 3 (expArr0 V c) (fun t _ => flushed0_3_eq V P c t) cover0_3

end

/-! ## The running row sums -/

/-- A finite sum over `m` consecutive blocks of `K` indices is the sum over the blocks of the sums inside them. -/
theorem sum_range_blocks (g : ℕ → EReal) (K : ℕ) : ∀ m : ℕ,
    ∑ j ∈ Finset.range (m * K), g j = ∑ k' ∈ Finset.range m, ∑ q ∈ Finset.range K, g (K * k' + q)
  | 0 => by simp
  | m + 1 => by
    rw [Nat.succ_mul, Finset.sum_range_add, sum_range_blocks g K m, Finset.sum_range_succ, Nat.mul_comm m K]

section
variable (V : (c : Dev nD) → (b : Ref sig .tc) → Buf (Elt Ideal) ((c : Thread nD τ).loc b))

/-- The specification's exponential over natural-number coordinates (zero outside the array's range). -/
def Enat (c : Dev nD) (bn : ℕ) (h : Fin 16) (jn : ℕ) : EReal :=
  if hb : bn < 32 then (if hj : jn < 16384 then Cert.Spec.E (mem0 V c) (keys0 V c) (str0 V c) ⟨bn, hb⟩ h ⟨jn, hj⟩ else 0) else 0

theorem Enat_eq (c : Dev nD) (b : Fin 32) (h : Fin 16) (j : Fin 16384) :
    Enat V c b.val h j.val = Cert.Spec.E (mem0 V c) (keys0 V c) (str0 V c) b h j := by
  unfold Enat; rw [dif_pos b.isLt, dif_pos j.isLt]

/-- The sum of the exponentials over the `k'`-th block of 2048 memory rows. -/
def Snat (c : Dev nD) (bn : ℕ) (h : Fin 16) (k' : ℕ) : EReal := ∑ q : Fin 2048, Enat V c bn h (2048 * k' + q.val)

/-- The sum of the exponentials over all the memory rows of a batch entry. -/
def rowSumAt (c : Dev nD) (b : Fin 32) (h : Fin 16) : EReal := ∑ j : Fin 16384, Cert.Spec.E (mem0 V c) (keys0 V c) (str0 V c) b h j

/-- Its definition, as an equation: the definition itself is sealed below, so that no comparison of terms ever
    opens a sum over 16384 indices. -/
theorem rowSumAt_def (c : Dev nD) (b : Fin 32) (h : Fin 16) :
    rowSumAt V c b h = ∑ j : Fin 16384, Cert.Spec.E (mem0 V c) (keys0 V c) (str0 V c) b h j := rfl

/-- It depends only on the values of its coordinates. -/
theorem rowSumAt_congr (c : Dev nD) {b b' : Fin 32} {h h' : Fin 16} (eb : b.val = b'.val) (eh : h.val = h'.val) :
    rowSumAt V c b h = rowSumAt V c b' h' := by
  obtain rfl := Fin.ext eb; obtain rfl := Fin.ext eh; rfl

/-- The eight block sums of a batch entry add up to the sum over all its memory rows. -/
theorem sum_Snat (c : Dev nD) (b : Fin 32) (h : Fin 16) :
    ∑ k' ∈ Finset.range 8, Snat V c b.val h k' = rowSumAt V c b h := by
  rw [rowSumAt_def]
  have e1 : ∀ k', Snat V c b.val h k' = ∑ q ∈ Finset.range 2048, Enat V c b.val h (2048 * k' + q) := fun k' =>
    Fin.sum_univ_eq_sum_range (fun q => Enat V c b.val h (2048 * k' + q)) 2048
  simp only [e1]
  rw [← sum_range_blocks (fun j => Enat V c b.val h j) 2048 8]
  show ∑ j ∈ Finset.range 16384, Enat V c b.val h j = _
  rw [← Fin.sum_univ_eq_sum_range (fun j => Enat V c b.val h j) 16384]
  exact Finset.sum_congr rfl fun j _ => Enat_eq V c b h j

attribute [irreducible] rowSumAt

/-- At the first block of a batch entry the scratch ends at that block's sums. -/
theorem acc_step_first (P : PayloadAt) (c : Dev nD) (t : Fin cfg0.N) (h0 : t.val % 8 = 0) (xs : Vec Ideal S16x1 .f32) (h : Fin 16) :
    (stepAt0 V c t xs).2.2 (ix2 h (0 : Fin 1)) = Snat V c (t.val / 8) h (t.val % 8) := by
  rw [stepAt0_acc_first V c t xs h0]
  refine (P.accStep_apply (mem0 V c) (keys0 V c) (str0 V c) ⟨t.val / 8, (pt0_lt t).1⟩ ⟨t.val % 8, (pt0_lt t).2⟩
    (iblk0 V c 0 t) (iblk0 V c 1 t) (iblk0 V c 2 t) (iblk0_0_apply V c t) (iblk0_1_apply V c t) (iblk0_2_apply V c t) _ h).trans ?_
  rw [P.pay3_apply h, zero_add]
  exact Finset.sum_congr rfl fun q _ => (Enat_eq V c ⟨t.val / 8, (pt0_lt t).1⟩ h ⟨2048 * (t.val % 8) + q.val, by have := (pt0_lt t).2; omega⟩).symm

/-- At a later block it ends at what it held plus that block's sums. -/
theorem acc_step_next (P : PayloadAt) (c : Dev nD) (t : Fin cfg0.N) (h0 : ¬t.val % 8 = 0) (xs : Vec Ideal S16x1 .f32) (h : Fin 16) :
    (stepAt0 V c t xs).2.2 (ix2 h (0 : Fin 1)) = xs (ix2 h (0 : Fin 1)) + Snat V c (t.val / 8) h (t.val % 8) := by
  rw [stepAt0_acc_next V c t xs h0]
  refine (P.accStep_apply (mem0 V c) (keys0 V c) (str0 V c) ⟨t.val / 8, (pt0_lt t).1⟩ ⟨t.val % 8, (pt0_lt t).2⟩
    (iblk0 V c 0 t) (iblk0 V c 1 t) (iblk0 V c 2 t) (iblk0_0_apply V c t) (iblk0_1_apply V c t) (iblk0_2_apply V c t) xs h).trans ?_
  refine congrArg (xs (ix2 h (0 : Fin 1)) + ·) ?_
  exact Finset.sum_congr rfl fun q _ => (Enat_eq V c ⟨t.val / 8, (pt0_lt t).1⟩ h ⟨2048 * (t.val % 8) + q.val, by have := (pt0_lt t).2; omega⟩).symm

/-- After a first block of a batch entry the scratch holds that block's sums. -/
theorem outs0_acc_first (P : PayloadAt) (c : Dev nD) (n : ℕ) (hn : n < cfg0.N) (h0 : n % 8 = 0) (h : Fin 16) :
    (outsAt0 V c n hn).2.2 (ix2 h (0 : Fin 1)) = Snat V c (n / 8) h (n % 8) := by
  cases n with
  | zero => exact acc_step_first V P c ⟨0, hn⟩ h0 _ h
  | succ n => exact acc_step_first V P c ⟨n + 1, hn⟩ h0 _ h

/-- After a later block it holds what it held after the block before, plus that block's sums. -/
theorem outs0_acc_next (P : PayloadAt) (c : Dev nD) (n : ℕ) (hn : n < cfg0.N) (h0 : ¬n % 8 = 0) (h : Fin 16) :
    (outsAt0 V c n hn).2.2 (ix2 h (0 : Fin 1))
      = (outsAt0 V c (n - 1) (Nat.lt_of_le_of_lt (Nat.sub_le _ _) hn)).2.2 (ix2 h (0 : Fin 1)) + Snat V c (n / 8) h (n % 8) := by
  cases n with
  | zero => exact absurd (Nat.zero_mod 8) h0
  | succ n => exact acc_step_next V P c ⟨n + 1, hn⟩ h0 _ h

/-- THE INVARIANT: after point `n = 8 b + k` the scratch holds, at key `h`, the sums of the exponentials over the
    blocks `0 .. k` of batch entry `b`. -/
theorem acc_inv (P : PayloadAt) (c : Dev nD) (n : ℕ) : ∀ (hn : n < cfg0.N) (h : Fin 16),
    (outsAt0 V c n hn).2.2 (ix2 h (0 : Fin 1)) = ∑ k' ∈ Finset.range (n % 8 + 1), Snat V c (n / 8) h k' := by
  induction n using Nat.strong_induction_on with
  | _ n ih =>
    intro hn h
    by_cases h0 : n % 8 = 0
    · rw [outs0_acc_first V P c n hn h0 h, h0, Finset.sum_range_one]
    · rw [outs0_acc_next V P c n hn h0 h, ih (n - 1) (by omega) _ h, show (n - 1) / 8 = n / 8 by omega,
        show (n - 1) % 8 + 1 = n % 8 by omega, Finset.sum_range_succ]

/-! ## The row sums' array -/

/-- Every entry of the row sums' array as ONE function of the arrays the region is entered with. -/
def sumArr0 (c : Dev nD) : S32x16x1.Idx → Elt Ideal .f32 :=
  fun i => rowSumAt V c ⟨(i 0).val, (i 0).isLt⟩ ⟨(i 1).val, (i 1).isLt⟩

/-- At the last block of a batch entry the point leaves, in the second output's buffer, the scratch as it then stands. -/
theorem outs0_rowsum (c : Dev nD) (t : Fin cfg0.N) (h7 : t.val % 8 = 7) :
    (outsAt0 V c t.val t.isLt).2.1 = k0_pay5 (outsAt0 V c t.val t.isLt).2.2 := by
  have h0 : ¬t.val % 8 = 0 := by omega
  rw [outsAt0_pos V c t (fun hz => h0 (by rw [hz])), stepAt0_rowsum V c t _ h0 h7, stepAt0_acc_next V c t _ h0]

/-- What the last point of a batch entry writes back into the row sums' array is its block of `sumArr0`. -/
theorem flushed0_4_eq (P : PayloadAt) (c : Dev nD) (t : Fin cfg0.N) (hf : (cfg0.win 4).flush t = true) :
    (dat0 (F := Ideal) V c).flushed 4 t = ((cfg0.win 4).blk t).view.read (Elt Ideal) (sumArr0 V c) := by
  have h7 : t.val % 8 = 7 := (flush0_4 t).mp hf
  show (cfg0.win 4).cut (grid0.coords t) ((dat0 (F := Ideal) V c).after 4 t) = _
  rw [after0_4, outs0_rowsum V c t h7]
  generalize hacc : (outsAt0 V c t.val t.isLt).2.2 = acc
  obtain ⟨-, -, -, -, -, -, -, -, -, -, -, -, e40, e41, e42⟩ := idx_facts0 t
  refine funext fun (j : S1x16x1.Idx) => ?_
  obtain ⟨u, h, z, rfl⟩ : ∃ (u : Fin 1) (h : Fin 16) (z : Fin 1), j = ix3 u h z := ⟨j 0, j 1, j 2, eq_ix3 j⟩
  obtain rfl : u = 0 := Subsingleton.elim _ _
  obtain rfl : z = 0 := Subsingleton.elim _ _
  show k0_pay5 acc (ix3 (0 : Fin 1) h (0 : Fin 1))
      = sumArr0 V c (((cfg0.win 4).blk t).view.emb (ix3 (0 : Fin 1) h (0 : Fin 1)))
  refine (P.pay5_apply acc h).trans ?_
  rw [← hacc, acc_inv V P c t.val t.isLt h, h7]
  refine (sum_Snat V c ⟨t.val / 8, (pt0_lt t).1⟩ h).trans ?_
  unfold sumArr0
  refine rowSumAt_congr V c ?_ ?_
  · show t.val / 8 = win0_4.index t (0 : Fin 3) * 1 + 1 * 0; omega
  · show h.val = win0_4.index t (1 : Fin 3) * 16 + 1 * h.val; omega

/-- An index of the row sums' array is in point `t`'s block iff each coordinate is in the block's range on its axis. -/
theorem mem_blk0_4 (t : Fin cfg0.N) (i : S32x16x1.Idx) :
    i ∈ ((cfg0.win 4).blk t).view.set ↔ ∀ a : Fin 3, win0_4.index t a * S1x16x1.size a ≤ (i a).val ∧ (i a).val < win0_4.index t a * S1x16x1.size a + S1x16x1.size a := by
  show i ∈ ((View.whole main_v1_1).slice (win0_4.rect t)).set ↔ _
  rw [View.set_slice_whole, Rect.mem_set_unit]
  exact Iff.rfl

/-- Every index `(b, h, 0)` of the row sums' array is in the block of batch entry `b`'s last point, `8 b + 7`. -/
theorem cover0_4 (i : S32x16x1.Idx) :
    ∃ t : Fin cfg0.N, (cfg0.win 4).flush t = true ∧ i ∈ ((cfg0.win 4).blk t).view.set := by
  have hi0 : (i 0).val < 32 := (i 0).isLt
  have hi1 : (i 1).val < 16 := (i 1).isLt
  have hi2 : (i 2).val < 1 := (i 2).isLt
  have hN : grid0.N = 256 := N_0
  have ht : 8 * (i 0).val + 7 < cfg0.N := by show _ < grid0.N; omega
  obtain ⟨-, -, -, -, -, -, -, -, -, -, -, -, e40, e41, e42⟩ := idx_facts0 ⟨8 * (i 0).val + 7, ht⟩
  have e40' : win0_4.index ⟨8 * (i 0).val + 7, ht⟩ (0 : Fin 3) = (8 * (i 0).val + 7) / 8 := e40
  refine ⟨⟨8 * (i 0).val + 7, ht⟩, (flush0_4 _).mpr (by show (8 * (i 0).val + 7) % 8 = 7; omega), ?_⟩
  rw [mem_blk0_4]
  intro a
  match a with
  | ⟨0, _⟩ => show win0_4.index ⟨8 * (i 0).val + 7, ht⟩ (0 : Fin 3) * 1 ≤ (i 0).val ∧ (i 0).val < win0_4.index ⟨8 * (i 0).val + 7, ht⟩ (0 : Fin 3) * 1 + 1; omega
  | ⟨1, _⟩ => show win0_4.index ⟨8 * (i 0).val + 7, ht⟩ (1 : Fin 3) * 16 ≤ (i 1).val ∧ (i 1).val < win0_4.index ⟨8 * (i 0).val + 7, ht⟩ (1 : Fin 3) * 16 + 16; omega
  | ⟨2, _⟩ => show win0_4.index ⟨8 * (i 0).val + 7, ht⟩ (2 : Fin 3) * 1 ≤ (i 2).val ∧ (i 2).val < win0_4.index ⟨8 * (i 0).val + 7, ht⟩ (2 : Fin 3) * 1 + 1; omega

/-- The row sums' array after the region's last point, with the sums sealed: entry `(b, h, 0)` is `rowSumAt` at `(b, h)`. -/
theorem final0_4_sealed (P : PayloadAt) (c : Dev nD) : (dat0 (F := Ideal) V c).arrAt 4 cfg0.N = sumArr0 V c :=
  (dat0 (F := Ideal) V c).arrAt_eq_of_cover 4 (sumArr0 V c) (fun t hf => flushed0_4_eq V P c t hf) cover0_4

/-- An entry of `sumArr0`, by coordinates. -/
theorem sumArr0_apply (c : Dev nD) (b : Fin 32) (h : Fin 16) (z : Fin 1) : sumArr0 V c (ix3 b h z) = rowSumAt V c b h := rfl

/-- The row sums' array after the region's last point: entry `(b, h, 0)` is the sum, over all the memory rows of
    batch entry `b`, of the exponentials of key `(b, h)`'s sharpened similarities. -/
theorem final0_4 (P : PayloadAt) (c : Dev nD) :
    (dat0 (F := Ideal) V c).arrAt 4 cfg0.N
      = fun i : S32x16x1.Idx => ∑ j : Fin 16384, Cert.Spec.E (mem0 V c) (keys0 V c) (str0 V c) ⟨(i 0).val, (i 0).isLt⟩ ⟨(i 1).val, (i 1).isLt⟩ j :=
  (final0_4_sealed V P c).trans (funext fun i => rowSumAt_def V c _ _)

end

end Cert.KernelIdeal.Hand

end
-- ==== Proof.HandKI.Reg1Value.lean ====
/- What the second kernel of @main (the normalisation) leaves in its output array, as ONE function of the
   buffer contents `V` its pipeline is entered with: entry (b, h, m) of the output is entry (b, h, m) of the
   numerators' array divided by entry (b, h, 0) of the row sums' array. The body's payload is read at an index
   (two unit-axis shape casts, a column broadcast along the long axis, a pointwise quotient); grid point t holds
   batch row t of all three arrays, so what point t writes back is block t of that function, and the 32 blocks
   cover the output array. At the ideal floats only. -/
import proofs.«119697_j1176821039589_1_alg».proof.Proof.HandKI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's payload at an index -/

/-- An `[a, 1]` column broadcast to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at `(u, p, q)`: the numerators' block at `(0, p, q)` divided by the row sums' block at
    `(0, p, 0)`. -/
theorem pay1_apply (x0 : Vec Ideal S1x16x16384 .f32) (x1 : Vec Ideal S1x16x1 .f32) (u : Fin 1) (p : Fin 16) (q : Fin 16384) :
    k1_pay1 x0 x1 (ix3 u p q) = Ideal.div (x0 (ix3 (0 : Fin 1) p q)) (x1 (ix3 (0 : Fin 1) p (0 : Fin 1))) := by
  unfold k1_pay1
  refine (shapeCast_ab_1ab_apply _ _ u p q).trans ?_
  refine (divf_apply _ _ _).trans ?_
  refine congrArg₂ Ideal.div (shapeCast_1ab_ab_apply x0 _ p q) ?_
  refine (broadcastTo_a1_ab_apply _ _ p q).trans ?_
  exact shapeCast_1ab_ab_apply x1 _ p (0 : Fin 1)

/-! ## The output array as one function of the entry contents -/

/-- Every entry of the numerators divided by its row's sum: entry `(b, h, m)` over entry `(b, h, 0)`. -/
def rowQuot (a0 : S32x16x16384.Idx → Elt Ideal .f32) (a1 : S32x16x1.Idx → Elt Ideal .f32) : S32x16x16384.Idx → Elt Ideal .f32 :=
  fun i => Ideal.div (a0 i) (a1 (ix3 (⟨(i 0).val, (i 0).isLt⟩ : Fin 32) (⟨(i 1).val, (i 1).isLt⟩ : Fin 16) (0 : Fin 1)))

theorem hz3 : (![0, 0, 0] : Fin 3 → Nat) = fun _ => 0 := funext fun a => by fin_cases a <;> rfl

/-- The printed index maps, decided over the 32 grid points: at point `t` each of the three windows is on block
    `(t, 0, 0)` of its array. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

section
variable (V : (c : Dev nD) → (b : Ref sig .tc) → Buf (Elt Ideal) ((c : Thread nD τ).loc b))

/-- What point `t` writes back is block `t` of `rowQuot` of the two input arrays as the pipeline finds them. -/
theorem flushed1_eq (c : Dev nD) (t : Fin cfg1.N) :
    (dat1 (F := Ideal) V c).flushed 2 t
      = ((cfg1.win 2).blk t).view.read (Elt Ideal) (rowQuot (V c main_v1_0) (V c main_v1_1)) := by
  show (cfg1.win 2).cut (grid1.coords t) ((dat1 (F := Ideal) V c).after 2 t) = _
  rw [after1_2]
  unfold out1_2
  rw [View.canon_unit_zero hz3]
  simp only [View.ld_unit_zero (S := S1x16x16384) hz3, View.ld_unit_zero (S := S1x16x1) hz3]
  obtain ⟨e00, e01, e02, e10, e11, e12, e20, e21, e22⟩ := idx_facts1 t
  refine funext fun (j : S1x16x16384.Idx) => ?_
  obtain ⟨u, p, q, rfl⟩ : ∃ (u : Fin 1) (p : Fin 16) (q : Fin 16384), j = ix3 u p q := ⟨j 0, j 1, j 2, eq_ix3 j⟩
  have hu : u.val = 0 := by omega
  show k1_pay1 (iblk1 V c 0 t) (iblk1 V c 1 t) (ix3 u p q)
      = rowQuot (V c main_v1_0) (V c main_v1_1) (((cfg1.win 2).blk t).view.emb (ix3 u p q))
  refine (pay1_apply (iblk1 V c 0 t) (iblk1 V c 1 t) u p q).trans ?_
  show Ideal.div (V c main_v1_0 (((cfg1.win 0).blk t).view.emb (ix3 (0 : Fin 1) p q)))
        (V c main_v1_1 (((cfg1.win 1).blk t).view.emb (ix3 (0 : Fin 1) p (0 : Fin 1))))
      = Ideal.div (V c main_v1_0 (((cfg1.win 2).blk t).view.emb (ix3 u p q)))
        (V c main_v1_1 (ix3 (⟨((((cfg1.win 2).blk t).view.emb (ix3 u p q)) 0).val, ((((cfg1.win 2).blk t).view.emb (ix3 u p q)) 0).isLt⟩ : Fin 32)
          (⟨((((cfg1.win 2).blk t).view.emb (ix3 u p q)) 1).val, ((((cfg1.win 2).blk t).view.emb (ix3 u p q)) 1).isLt⟩ : Fin 16) (0 : Fin 1)))
  have h0 : ((cfg1.win 0).blk t).view.emb (ix3 (0 : Fin 1) p q) = ((cfg1.win 2).blk t).view.emb (ix3 u p q) := by
    funext a; apply Fin.ext
    match a with
    | ⟨0, _⟩ => show win1_0.index t (0 : Fin 3) * 1 + 1 * 0 = win1_2.index t (0 : Fin 3) * 1 + 1 * u.val; omega
    | ⟨1, _⟩ => show win1_0.index t (1 : Fin 3) * 16 + 1 * p.val = win1_2.index t (1 : Fin 3) * 16 + 1 * p.val; omega
    | ⟨2, _⟩ => show win1_0.index t (2 : Fin 3) * 16384 + 1 * q.val = win1_2.index t (2 : Fin 3) * 16384 + 1 * q.val; omega
  have h1 : ((cfg1.win 1).blk t).view.emb (ix3 (0 : Fin 1) p (0 : Fin 1))
      = ix3 (⟨((((cfg1.win 2).blk t).view.emb (ix3 u p q)) 0).val, ((((cfg1.win 2).blk t).view.emb (ix3 u p q)) 0).isLt⟩ : Fin 32)
          (⟨((((cfg1.win 2).blk t).view.emb (ix3 u p q)) 1).val, ((((cfg1.win 2).blk t).view.emb (ix3 u p q)) 1).isLt⟩ : Fin 16) (0 : Fin 1) := by
    funext a; apply Fin.ext
    match a with
    | ⟨0, _⟩ => show win1_1.index t (0 : Fin 3) * 1 + 1 * 0 = win1_2.index t (0 : Fin 3) * 1 + 1 * u.val; omega
    | ⟨1, _⟩ => show win1_1.index t (1 : Fin 3) * 16 + 1 * p.val = win1_2.index t (1 : Fin 3) * 16 + 1 * p.val; omega
    | ⟨2, _⟩ => show win1_1.index t (2 : Fin 3) * 1 + 1 * 0 = 0; omega
  exact congrArg₂ Ideal.div (congrArg (V c main_v1_0) h0) (congrArg (V c main_v1_1) h1)

/-- An index of the output array is in point `t`'s block iff each coordinate is in the block's range on its axis. -/
theorem mem_blk1 (t : Fin cfg1.N) (i : S32x16x16384.Idx) :
    i ∈ ((cfg1.win 2).blk t).view.set ↔ ∀ a : Fin 3, win1_2.index t a * S1x16x16384.size a ≤ (i a).val ∧ (i a).val < win1_2.index t a * S1x16x16384.size a + S1x16x16384.size a := by
  show i ∈ ((View.whole main_v2).slice (win1_2.rect t)).set ↔ _
  rw [View.set_slice_whole, Rect.mem_set_unit]
  exact Iff.rfl

/-- Every index of the output array is in the block of the point its batch coordinate names. -/
theorem cover1 (i : S32x16x16384.Idx) :
    ∃ t : Fin cfg1.N, (cfg1.win 2).flush t = true ∧ i ∈ ((cfg1.win 2).blk t).view.set := by
  have hi0 : (i 0).val < 32 := (i 0).isLt
  have hi1 : (i 1).val < 16 := (i 1).isLt
  have hi2 : (i 2).val < 16384 := (i 2).isLt
  have hN : grid1.N = 32 := N_1
  have ht : (i 0).val < cfg1.N := by show (i 0).val < grid1.N; omega
  obtain ⟨-, -, -, -, -, -, e20, e21, e22⟩ := idx_facts1 ⟨(i 0).val, ht⟩
  have e20' : win1_2.index ⟨(i 0).val, ht⟩ (0 : Fin 3) = (i 0).val := e20
  refine ⟨⟨(i 0).val, ht⟩, flush1_2 _, ?_⟩
  rw [mem_blk1]
  intro a
  match a with
  | ⟨0, _⟩ => show win1_2.index ⟨(i 0).val, ht⟩ (0 : Fin 3) * 1 ≤ (i 0).val ∧ (i 0).val < win1_2.index ⟨(i 0).val, ht⟩ (0 : Fin 3) * 1 + 1; omega
  | ⟨1, _⟩ => show win1_2.index ⟨(i 0).val, ht⟩ (1 : Fin 3) * 16 ≤ (i 1).val ∧ (i 1).val < win1_2.index ⟨(i 0).val, ht⟩ (1 : Fin 3) * 16 + 16; omega
  | ⟨2, _⟩ => show win1_2.index ⟨(i 0).val, ht⟩ (2 : Fin 3) * 16384 ≤ (i 2).val ∧ (i 2).val < win1_2.index ⟨(i 0).val, ht⟩ (2 : Fin 3) * 16384 + 16384; omega

/-- The output array after the pipeline's last point: every entry of the numerators' array divided by its row's sum,
    both as the pipeline found them. -/
theorem final1 (c : Dev nD) :
    (dat1 (F := Ideal) V c).arrAt 2 cfg1.N
      = fun i : S32x16x16384.Idx => Ideal.div (V c main_v1_0 i)
          (V c main_v1_1 (ix3 (⟨(i 0).val, (i 0).isLt⟩ : Fin 32) (⟨(i 1).val, (i 1).isLt⟩ : Fin 16) (0 : Fin 1))) :=
  (dat1 (F := Ideal) V c).arrAt_eq_of_cover 2 (rowQuot (V c main_v1_0) (V c main_v1_1)) (fun t _ => flushed1_eq V c t) cover1

end

end Cert.KernelIdeal.Hand

end
-- ==== Proof.HandKI.Reg0Payload.lean ====
/- The first kernel's payloads read at an index, at the ideal floats, against the specification: with the memory
   block holding rows 2048 k … 2048 k + 2047 of batch entry b, the keys block the 16 keys of b and the strengths
   block their strengths, the block of exponentials at (h, q) is the specification's exponential of the sharpened
   cosine similarity of key h with memory row 2048 k + q, and the scratch's update adds the block's 2048
   exponentials of row h to what the scratch held at h. The contraction is read as a sum over the 256 columns
   (keys times the transposed memory block), the lane sums as sums over a row, the unit-axis casts, the transposes
   and the broadcasts at their one source index. -/
import proofs.«119697_j1176821039589_1_alg».proof.Proof.HandKI.Reg0Pieces
import proofs.«119697_j1176821039589_1_alg».proof.Proof.HandKI.Reg1Value
import proofs.«119697_j1176821039589_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

/-! ## Layout and reduction operations at an index -/

/-- An `[a]` vector cast to an `[a, 1]` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The sum along the rows of an `[a, b]` matrix, at row `p`: the sum of the row's `b` entries. -/
theorem rowSum0_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ y 0x00000000#32 h hφ hacc (ix1 p) = ∑ w : Fin b, y (ix2 p w) :=
  (Ideal.multiReduction_add_single y _ h hφ hacc (ix1 p)).trans
    (Finset.sum_congr rfl fun w _ => congrArg y (funext fun d => Fin.ext (by match d with | ⟨0, _⟩ => rfl | ⟨1, _⟩ => rfl)))

/-- The contraction's operand indices at output index `i` and contraction index `q`: the keys at `(i 0, q)`, the
    transposed memory block at `(q, i 1)`. -/
theorem lhs0_0 (i : S16x2048.Idx) (q : dot_S16x256_S256x2048_S16x2048_1_0_0_1_n_n.contr.Idx) : (dot_S16x256_S256x2048_S16x2048_1_0_0_1_n_n.lhsIdx i q 0).val = (i 0).val := by
  unfold DotDims.lhsIdx
  rw [dif_neg (show ¬(0 : Fin S16x256.rank) ∈ dot_S16x256_S256x2048_S16x2048_1_0_0_1_n_n.lhsBatch by decide), dif_pos (show (0 : Fin S16x256.rank) ∈ dot_S16x256_S256x2048_S16x2048_1_0_0_1_n_n.lhsNonContracting by decide)]
  rfl
theorem lhs0_1 (i : S16x2048.Idx) (q : dot_S16x256_S256x2048_S16x2048_1_0_0_1_n_n.contr.Idx) : (dot_S16x256_S256x2048_S16x2048_1_0_0_1_n_n.lhsIdx i q 1).val = (q ⟨0, by decide⟩).val :=
  dot_S16x256_S256x2048_S16x2048_1_0_0_1_n_n.lhsIdx_val_of_single rfl i q
theorem rhs0_0 (i : S16x2048.Idx) (q : dot_S16x256_S256x2048_S16x2048_1_0_0_1_n_n.contr.Idx) : (dot_S16x256_S256x2048_S16x2048_1_0_0_1_n_n.rhsIdx i q 0).val = (q ⟨0, by decide⟩).val :=
  dot_S16x256_S256x2048_S16x2048_1_0_0_1_n_n.rhsIdx_val_of_single rfl i q
theorem rhs0_1 (i : S16x2048.Idx) (q : dot_S16x256_S256x2048_S16x2048_1_0_0_1_n_n.contr.Idx) : (dot_S16x256_S256x2048_S16x2048_1_0_0_1_n_n.rhsIdx i q 1).val = (i 1).val := by
  unfold DotDims.rhsIdx
  rw [dif_neg (show ¬(1 : Fin S256x2048.rank) ∈ dot_S16x256_S256x2048_S16x2048_1_0_0_1_n_n.rhsBatch by decide), dif_pos (show (1 : Fin S256x2048.rank) ∈ dot_S16x256_S256x2048_S16x2048_1_0_0_1_n_n.rhsNonContracting by decide)]
  rfl

/-- The contraction of the 16 x 256 keys with the 256 x 2048 transposed memory block into zeros, at `(h, q)`: the sum
    over the 256 columns of key entry `(h, w)` times transposed entry `(w, q)`. -/
theorem dot0_apply (l : FVec Ideal S16x256 .bf16) (r : FVec Ideal S256x2048 .bf16) (h : Fin 16) (q : Fin 2048) :
    matmul dot_S16x256_S256x2048_S16x2048_1_0_0_1_n_n none l r (constant S16x2048 .f32 0x00000000#32) (ix2 h q)
      = ∑ w : Fin 256, l (ix2 h w) * r (ix2 w q) := by
  refine (Ideal.matmul_constant_zero_apply dot_S16x256_S256x2048_S16x2048_1_0_0_1_n_n none l r (ix2 h q)).trans ?_
  rw [← Equiv.sum_comp (ValueIdx.contrEquiv1 dot_S16x256_S256x2048_S16x2048_1_0_0_1_n_n 256 rfl rfl).symm]
  refine Finset.sum_congr rfl fun w _ => ?_
  have hw := ValueIdx.contrEquiv1_symm_val dot_S16x256_S256x2048_S16x2048_1_0_0_1_n_n 256 rfl rfl w
  have el : dot_S16x256_S256x2048_S16x2048_1_0_0_1_n_n.lhsIdx (ix2 h q) ((ValueIdx.contrEquiv1 dot_S16x256_S256x2048_S16x2048_1_0_0_1_n_n 256 rfl rfl).symm w) = ix2 h w := funext fun a => Fin.ext (by
    match a with
    | ⟨0, _⟩ => exact lhs0_0 _ _
    | ⟨1, _⟩ => exact (lhs0_1 _ _).trans hw)
  have er : dot_S16x256_S256x2048_S16x2048_1_0_0_1_n_n.rhsIdx (ix2 h q) ((ValueIdx.contrEquiv1 dot_S16x256_S256x2048_S16x2048_1_0_0_1_n_n 256 rfl rfl).symm w) = ix2 w q := funext fun a => Fin.ext (by
    match a with
    | ⟨0, _⟩ => exact (rhs0_0 _ _).trans hw
    | ⟨1, _⟩ => exact rhs0_1 _ _)
  rw [el, er]

/-! ## The payloads against the specification -/

/-- The stabilised cosine similarity of key `h` with the block's memory row `q`. -/
theorem act0_apply (mem : Fin 32 → Fin 16384 → Fin 256 → EReal) (keys : Fin 32 → Fin 16 → Fin 256 → EReal) (str : Fin 32 → Fin 16 → EReal)
    (b : Fin 32) (k : Fin 8) (x0 : Vec Ideal S1x2048x256 .f32) (x1 : Vec Ideal S1x16x256 .f32) (x2 : Vec Ideal S1x16x1 .f32)
    (hx0 : ∀ (q : Fin 2048) (w : Fin 256), x0 (ix3 0 q w) = mem b ⟨2048 * k.val + q.val, by omega⟩ w)
    (hx1 : ∀ (h : Fin 16) (w : Fin 256), x1 (ix3 0 h w) = keys b h w)
    (hx2 : ∀ h : Fin 16, x2 (ix3 0 h 0) = str b h) (h : Fin 16) (q : Fin 2048) :
    k0_pay7 (F := Ideal) x0 x1 (ix2 h q) = Cert.Spec.act mem keys b h ⟨2048 * k.val + q.val, by omega⟩ := by
  have ek : ∀ w : Fin 256, shapeCast S16x256 x1 shapeCasts_S1x16x256_S16x256 (ix2 h w) = keys b h w :=
    fun w => (shapeCast_1ab_ab_apply x1 _ h w).trans (hx1 h w)
  have em : ∀ w : Fin 256, shapeCast S2048x256 x0 shapeCasts_S1x2048x256_S2048x256 (ix2 q w) = mem b ⟨2048 * k.val + q.val, by omega⟩ w :=
    fun w => (shapeCast_1ab_ab_apply x0 _ q w).trans (hx0 q w)
  unfold k0_pay7 Cert.Spec.act
  refine (divf_apply _ _ _).trans ?_
  refine congrArg₂ Ideal.div ?_ ?_
  · -- the inner product
    refine (dot0_apply _ _ h q).trans ?_
    unfold Cert.Spec.dot
    refine Finset.sum_congr rfl fun w _ => ?_
    refine congrArg₂ (· * ·) ?_ ?_
    · exact ek w
    · exact (transpose_ix2_apply _ _ w q).trans (em w)
  · -- the product of the two stabilised norms, stabilised
    refine (addf_apply _ _ _).trans ?_
    refine congrArg₂ (· + ·) ?_ rfl
    refine (mulf_apply _ _ _).trans ?_
    unfold Cert.Spec.norm
    refine congrArg₂ (· * ·) ?_ ?_
    · -- the key's norm, broadcast along the memory rows
      refine (broadcastTo_a1_ab_apply _ _ h q).trans ?_
      refine congrArg Ideal.sqrt ?_
      refine (addf_apply _ _ _).trans ?_
      refine congrArg₂ (· + ·) ?_ rfl
      refine (shapeCast_a_a1_apply _ _ h 0).trans ?_
      refine (rowSum0_apply _ _ _ _ h).trans ?_
      unfold Cert.Spec.ksq
      refine Finset.sum_congr rfl fun w _ => ?_
      exact (mulf_apply _ _ _).trans (congrArg₂ (· * ·) (ek w) (ek w))
    · -- the memory row's norm, transposed to a row and broadcast along the keys
      refine (broadcastTo_1b_ab_apply _ _ h q).trans ?_
      refine (transpose_ix2_apply _ _ (0 : Fin 1) q).trans ?_
      refine congrArg Ideal.sqrt ?_
      refine (addf_apply _ _ _).trans ?_
      refine congrArg₂ (· + ·) ?_ rfl
      refine (shapeCast_a_a1_apply _ _ q 0).trans ?_
      refine (rowSum0_apply _ _ _ _ q).trans ?_
      unfold Cert.Spec.msq
      refine Finset.sum_congr rfl fun w _ => ?_
      exact (mulf_apply _ _ _).trans (congrArg₂ (· * ·) (em w) (em w))

/-- A value is never unordered-or-unequal to itself. -/
theorem cmp_one_self (a : EReal) : Ideal.cmp .one a a = 0#1 := by
  unfold Ideal.cmp; simp

/-- The softplus of key `h`'s strength: the selection on "the strength is not a number" takes the computed branch. -/
theorem sp0_apply (str : Fin 32 → Fin 16 → EReal) (b : Fin 32) (x2 : Vec Ideal S1x16x1 .f32)
    (hx2 : ∀ h : Fin 16, x2 (ix3 0 h 0) = str b h) (h : Fin 16) :
    select (k0_pay10 (F := Ideal) x2) (k0_pay11 x2) (addf (k0_pay8 x2) (k0_pay12 x2)) (ix2 h (0 : Fin 1)) = Cert.Spec.sp str b h := by
  have e6 : k0_pay6 (F := Ideal) x2 (ix2 h (0 : Fin 1)) = str b h := (shapeCast_1ab_ab_apply x2 _ h 0).trans (hx2 h)
  have hc : k0_pay10 (F := Ideal) x2 (ix2 h (0 : Fin 1)) = 0#1 := cmp_one_self _
  refine (select_apply _ _ _ _).trans ?_
  rw [hc, select_zero]
  refine (addf_apply _ _ _).trans ?_
  unfold Cert.Spec.sp
  refine congrArg₂ (· + ·) ?_ ?_
  · show max (k0_pay6 (F := Ideal) x2 (ix2 h (0 : Fin 1))) (Ideal.ofBits .f32 0x00000000#32) = _
    rw [e6, Ideal.ofBits_zero_f32]
  · show Ideal.log1p (Ideal.exp (Ideal.ofBits .f32 0x00000000#32
        - max (k0_pay6 (F := Ideal) x2 (ix2 h (0 : Fin 1)) - Ideal.ofBits .f32 0x00000000#32)
            (-(k0_pay6 (F := Ideal) x2 (ix2 h (0 : Fin 1)) - Ideal.ofBits .f32 0x00000000#32)))) = _
    rw [e6, Ideal.ofBits_zero_f32]

/-- The block's exponential at `(h, q)` is the specification's at key `h` and memory row `2048 k + q`. -/
theorem Eblk_apply (mem : Fin 32 → Fin 16384 → Fin 256 → EReal) (keys : Fin 32 → Fin 16 → Fin 256 → EReal) (str : Fin 32 → Fin 16 → EReal)
    (b : Fin 32) (k : Fin 8) (x0 : Vec Ideal S1x2048x256 .f32) (x1 : Vec Ideal S1x16x256 .f32) (x2 : Vec Ideal S1x16x1 .f32)
    (hx0 : ∀ (q : Fin 2048) (w : Fin 256), x0 (ix3 0 q w) = mem b ⟨2048 * k.val + q.val, by omega⟩ w)
    (hx1 : ∀ (h : Fin 16) (w : Fin 256), x1 (ix3 0 h w) = keys b h w)
    (hx2 : ∀ h : Fin 16, x2 (ix3 0 h 0) = str b h) (h : Fin 16) (q : Fin 2048) :
    Eblk (F := Ideal) x0 x1 x2 (ix2 h q) = Cert.Spec.E mem keys str b h ⟨2048 * k.val + q.val, by omega⟩ := by
  unfold Eblk k0_pay1 Cert.Spec.E Cert.Spec.sharp
  refine congrArg Ideal.exp ?_
  refine (mulf_apply _ _ _).trans ?_
  refine congrArg₂ (· * ·) (act0_apply mem keys str b k x0 x1 x2 hx0 hx1 hx2 h q) ?_
  refine (broadcastTo_a1_ab_apply _ _ h q).trans ?_
  exact sp0_apply str b x2 hx2 h

/-- The scratch's update at key `h`: what it held plus the block's 2048 exponentials of that key. -/
theorem accStep_apply (mem : Fin 32 → Fin 16384 → Fin 256 → EReal) (keys : Fin 32 → Fin 16 → Fin 256 → EReal) (str : Fin 32 → Fin 16 → EReal)
    (b : Fin 32) (k : Fin 8) (x0 : Vec Ideal S1x2048x256 .f32) (x1 : Vec Ideal S1x16x256 .f32) (x2 : Vec Ideal S1x16x1 .f32)
    (hx0 : ∀ (q : Fin 2048) (w : Fin 256), x0 (ix3 0 q w) = mem b ⟨2048 * k.val + q.val, by omega⟩ w)
    (hx1 : ∀ (h : Fin 16) (w : Fin 256), x1 (ix3 0 h w) = keys b h w)
    (hx2 : ∀ h : Fin 16, x2 (ix3 0 h 0) = str b h) (xs : Vec Ideal S16x1 .f32) (h : Fin 16) :
    accStep (F := Ideal) x0 x1 x2 xs (ix2 h 0)
      = xs (ix2 h 0) + ∑ q : Fin 2048, Cert.Spec.E mem keys str b h ⟨2048 * k.val + q.val, by omega⟩ := by
  unfold accStep k0_pay4
  refine (congrFun (shapeCast_self _ _) _).trans ?_
  refine (addf_apply _ _ _).trans ?_
  refine congrArg (xs (ix2 h 0) + ·) ?_
  refine (shapeCast_a_a1_apply _ _ h 0).trans ?_
  refine (rowSum0_apply _ _ _ _ h).trans ?_
  exact Finset.sum_congr rfl fun q _ => Eblk_apply mem keys str b k x0 x1 x2 hx0 hx1 hx2 h q

/-- The scratch is cleared to zeros. -/
theorem pay3_apply (h : Fin 16) : k0_pay3 (F := Ideal) (ix2 h 0) = 0 := by
  unfold k0_pay3
  exact (congrFun (shapeCast_self _ _) _).trans Ideal.ofBits_zero_f32

/-- The row-sum output's block is the scratch with a leading unit axis. -/
theorem pay5_apply (v : Vec Ideal S16x1 .f32) (h : Fin 16) : k0_pay5 (F := Ideal) v (ix3 0 h 0) = v (ix2 h 0) := by
  unfold k0_pay5
  exact shapeCast_ab_1ab_apply v _ 0 h 0

/-- The exponentials' output block is the block of exponentials with a leading unit axis. -/
theorem pay2_apply (v28 : FVec Ideal S16x2048 .f32) (v30 : FVec Ideal S16x1 .f32) (v33 : IVec S16x1 1) (v35 v40 : FVec Ideal S16x1 .f32)
    (h : Fin 16) (q : Fin 2048) :
    k0_pay2 (F := Ideal) v28 v30 v33 v35 v40 (ix3 0 h q) = k0_pay1 (F := Ideal) v28 v30 v33 v35 v40 (ix2 h q) := by
  unfold k0_pay2
  exact shapeCast_ab_1ab_apply _ _ 0 h q

end Cert.KernelIdeal.Hand

end
-- ==== Proof.HandKI.Final.lean ====
/- The kernel program's result, as one function of the launch memory: the second kernel's quotient of what the first
   kernel left (the exponentials E and their row sums), which is the specification's softmax without the shift. -/
import proofs.«119697_j1176821039589_1_alg».proof.Proof.HandKI.Entry
import proofs.«119697_j1176821039589_1_alg».proof.Proof.HandKI.Reg0Value
import proofs.«119697_j1176821039589_1_alg».proof.Proof.HandKI.Reg0Payload
import proofs.«119697_j1176821039589_1_alg».proof.Proof.HandKI.Reg1Value
import proofs.«119697_j1176821039589_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The body's arithmetic read at an index: the five facts the blocks-to-arrays step takes. -/
theorem payloadAt : PayloadAt := ⟨Eblk_apply, accStep_apply, pay3_apply, pay5_apply, pay2_apply⟩

/-- The launch memory's three arguments by coordinates. -/
abbrev memL (c : Dev nD) : Fin 32 → Fin 16384 → Fin 256 → EReal :=
  fun b j w => (m ((c : Thread nD τ).loc main_arg0) : (⟨S32x16384x256, .f32⟩ : BufTy).Contents (Elt Ideal)) (ix3 b j w)
abbrev keysL (c : Dev nD) : Fin 32 → Fin 16 → Fin 256 → EReal :=
  fun b h w => (m ((c : Thread nD τ).loc main_arg1) : (⟨S32x16x256, .f32⟩ : BufTy).Contents (Elt Ideal)) (ix3 b h w)
abbrev strL (c : Dev nD) : Fin 32 → Fin 16 → EReal :=
  fun b h => (m ((c : Thread nD τ).loc main_arg2) : (⟨S32x16, .f32⟩ : BufTy).Contents (Elt Ideal)) (ix2 b h)

/-- The program's result: the specification's softmax of the sharpened activations, entry by entry. -/
def result (c : Dev nD) : (⟨S32x16x16384, .f32⟩ : BufTy).Contents (Elt Ideal) := fun i =>
  Cert.Spec.out (memL m c) (keysL m c) (strL m c) ⟨(i 0).val, (i 0).isLt⟩ ⟨(i 1).val, (i 1).isLt⟩ ⟨(i 2).val, (i 2).isLt⟩

theorem mem0_eq (c : Dev nD) : mem0 (V1 m ρ) c = memL m c := by
  funext b j w; show (V1 m ρ c main_arg0) (ix3 b j w) = _; rw [V1_main_arg0]
theorem keys0_eq (c : Dev nD) : keys0 (V1 m ρ) c = keysL m c := by
  funext b h w; show (V1 m ρ c main_arg1) (ix3 b h w) = _; rw [V1_main_arg1]
theorem str0_eq (c : Dev nD) : str0 (V1 m ρ) c = strL m c := by
  funext b h; exact V1_main_v0_apply m ρ c b h

/-- What the last boundary holds in the result's buffer. -/
theorem W3_main_v2 (c : Dev nD) : W3 (F := Ideal) m ρ c (Proc.devRef .tc main_v2) = result m c := by
  refine ((W3_arr m ρ c 2).trans (final1 (V2 m ρ) c)).trans ?_
  have e3 : V2 m ρ c main_v1_0 = (dat0 (V1 m ρ) c).arrAt 3 cfg0.N := W2_arr m ρ c 3
  have e4 : V2 m ρ c main_v1_1 = (dat0 (V1 m ρ) c).arrAt 4 cfg0.N := W2_arr m ρ c 4
  funext i
  rw [e3, e4, final0_3 (V1 m ρ) payloadAt c, final0_4_sealed (V1 m ρ) payloadAt c, sumArr0_apply, rowSumAt_def,
    mem0_eq, keys0_eq, str0_eq]
  simp only [result, Cert.Spec.out]

end Cert.KernelIdeal.Hand

end
-- ==== Proof.SoftmaxLaw.lean ====
/-
  The mathematics of the specification when every input entry is a real number: every intermediate
  quantity is then a real number (the stabilised norms and the exponentials positive ones), and the
  softmax is unchanged when a real constant is subtracted from every exponent, as a statement about
  the extended reals' own division and exponential.
-/
import proofs.«119697_j1176821039589_1_alg».proof.Proof.Spec

noncomputable section

open scoped BigOperators

namespace Cert.Spec

open Idealize.ShloMosaic

/-! ## Real, nonnegative and positive extended reals -/

/-- `x` is a real number. -/
def Re (x : EReal) : Prop := ∃ r : ℝ, x = (r : EReal)
/-- `x` is a nonnegative real number. -/
def NN (x : EReal) : Prop := ∃ r : ℝ, 0 ≤ r ∧ x = (r : EReal)
/-- `x` is a positive real number. -/
def Pos (x : EReal) : Prop := ∃ r : ℝ, 0 < r ∧ x = (r : EReal)

theorem Pos.re {x : EReal} (h : Pos x) : Re x := let ⟨r, _, e⟩ := h; ⟨r, e⟩
theorem Pos.nn {x : EReal} (h : Pos x) : NN x := let ⟨r, p, e⟩ := h; ⟨r, p.le, e⟩
theorem NN.re {x : EReal} (h : NN x) : Re x := let ⟨r, _, e⟩ := h; ⟨r, e⟩

theorem Re.zero : Re 0 := ⟨0, rfl⟩

theorem Re.add {x y : EReal} (hx : Re x) (hy : Re y) : Re (x + y) := by
  obtain ⟨a, rfl⟩ := hx; obtain ⟨b, rfl⟩ := hy; exact ⟨a + b, (EReal.coe_add a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem Re.sub {x y : EReal} (hx : Re x) (hy : Re y) : Re (x - y) := by
  obtain ⟨a, rfl⟩ := hx; obtain ⟨b, rfl⟩ := hy; exact ⟨a - b, (EReal.coe_sub a b).symm⟩
theorem Re.neg {x : EReal} (hx : Re x) : Re (-x) := by
  obtain ⟨a, rfl⟩ := hx; exact ⟨-a, (EReal.coe_neg a).symm⟩

/-- The coercion of the reals commutes with `max`. -/
theorem coe_max (a b : ℝ) : ((max a b : ℝ) : EReal) = max (a : EReal) (b : EReal) :=
  EReal.coe_strictMono.monotone.map_max

theorem Re.max {x y : EReal} (hx : Re x) (hy : Re y) : Re (max x y) := by
  obtain ⟨a, rfl⟩ := hx; obtain ⟨b, rfl⟩ := hy; exact ⟨_, (coe_max a b).symm⟩

/-- The coercion of the reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem Re.sum {ι : Type*} (s : Finset ι) (f : ι → EReal) (hf : ∀ i, Re (f i)) : Re (∑ i ∈ s, f i) := by
  choose g hg using hf
  exact ⟨∑ i ∈ s, g i, by rw [coe_sum]; exact Finset.sum_congr rfl fun i _ => hg i⟩

theorem NN.sum {ι : Type*} (s : Finset ι) (f : ι → EReal) (hf : ∀ i, NN (f i)) : NN (∑ i ∈ s, f i) := by
  choose g hg0 hg using hf
  exact ⟨∑ i ∈ s, g i, Finset.sum_nonneg fun i _ => hg0 i, by rw [coe_sum]; exact Finset.sum_congr rfl fun i _ => hg i⟩

theorem Pos.sum {ι : Type*} (s : Finset ι) (hs : s.Nonempty) (f : ι → EReal) (hf : ∀ i, Pos (f i)) :
    Pos (∑ i ∈ s, f i) := by
  choose g hg0 hg using hf
  exact ⟨∑ i ∈ s, g i, Finset.sum_pos (fun i _ => hg0 i) hs, by rw [coe_sum]; exact Finset.sum_congr rfl fun i _ => hg i⟩

/-- A real number times itself is a nonnegative real number. -/
theorem Re.mul_self {x : EReal} (hx : Re x) : NN (x * x) := by
  obtain ⟨a, rfl⟩ := hx; exact ⟨a * a, mul_self_nonneg a, (EReal.coe_mul a a).symm⟩

theorem NN.add_pos {x y : EReal} (hx : NN x) (hy : Pos y) : Pos (x + y) := by
  obtain ⟨a, ha, rfl⟩ := hx; obtain ⟨b, hb, rfl⟩ := hy
  exact ⟨a + b, by positivity, (EReal.coe_add a b).symm⟩
theorem Pos.add {x y : EReal} (hx : Pos x) (hy : Pos y) : Pos (x + y) := hx.nn.add_pos hy
theorem Pos.mul {x y : EReal} (hx : Pos x) (hy : Pos y) : Pos (x * y) := by
  obtain ⟨a, ha, rfl⟩ := hx; obtain ⟨b, hb, rfl⟩ := hy
  exact ⟨a * b, by positivity, (EReal.coe_mul a b).symm⟩

/-- The square root of a positive real number is one. -/
theorem Pos.sqrt {x : EReal} (hx : Pos x) : Pos (Ideal.sqrt x) := by
  obtain ⟨a, ha, rfl⟩ := hx
  exact ⟨Real.sqrt a, Real.sqrt_pos.mpr ha, by rw [Ideal.sqrt_coe, if_neg (not_lt.mpr ha.le)]⟩

/-- A real number divided by a positive real number is a real number: the quotient of the reals. -/
theorem div_coe_pos (a b : ℝ) (hb : 0 < b) : Ideal.div (a : EReal) (b : EReal) = ((a / b : ℝ) : EReal) := by
  rw [Ideal.div_coe hb.ne', ← EReal.coe_mul, mul_one_div]

theorem Re.div {x y : EReal} (hx : Re x) (hy : Pos y) : Re (Ideal.div x y) := by
  obtain ⟨a, rfl⟩ := hx; obtain ⟨b, hb, rfl⟩ := hy
  exact ⟨a / b, div_coe_pos a b hb⟩

theorem Pos.div {x y : EReal} (hx : Pos x) (hy : Pos y) : Pos (Ideal.div x y) := by
  obtain ⟨a, ha, rfl⟩ := hx; obtain ⟨b, hb, rfl⟩ := hy
  exact ⟨a / b, by positivity, div_coe_pos a b hb⟩

/-- The exponential of a real number is a positive real number. -/
theorem Re.exp {x : EReal} (hx : Re x) : Pos (Ideal.exp x) := by
  obtain ⟨a, rfl⟩ := hx; exact ⟨Real.exp a, Real.exp_pos a, Ideal.exp_coe a⟩

/-- `log (1 + x)` of a positive real number is a real number. -/
theorem Pos.log1p {x : EReal} (hx : Pos x) : Re (Ideal.log1p x) := by
  obtain ⟨a, ha, rfl⟩ := hx
  refine ⟨Real.log (1 + a), ?_⟩
  rw [Ideal.log1p, ← EReal.coe_one, ← EReal.coe_add, Ideal.log_coe, if_neg (not_le.mpr (by positivity))]

/-! ## The stabiliser -/

/-- The stabiliser's word denotes a positive real number. -/
theorem eps_pos : Pos eps :=
  ⟨((2 ^ 23 + 2606508 : ℕ) : ℝ) * (2 : ℝ) ^ (-40 : ℤ), by positivity, by
    simp [eps, Ideal.ofBits, Ideal.ieee, -EReal.coe_mul]⟩

/-! ## Every quantity of the specification is real -/

section
variable (mem : Fin 32 → Fin 16384 → Fin 256 → EReal) (keys : Fin 32 → Fin 16 → Fin 256 → EReal)
  (str : Fin 32 → Fin 16 → EReal)
  (hm : ∀ b j w, Re (mem b j w)) (hk : ∀ b h w, Re (keys b h w)) (hs : ∀ b h, Re (str b h))
include hm hk

theorem dot_re (b : Fin 32) (h : Fin 16) (j : Fin 16384) : Re (dot mem keys b h j) :=
  Re.sum _ _ fun w => (hk b h w).mul (hm b j w)

omit hm in
theorem ksq_nn (b : Fin 32) (h : Fin 16) : NN (ksq keys b h) := NN.sum _ _ fun w => (hk b h w).mul_self

omit hk in
theorem msq_nn (b : Fin 32) (j : Fin 16384) : NN (msq mem b j) := NN.sum _ _ fun w => (hm b j w).mul_self

theorem norm_pos (b : Fin 32) (h : Fin 16) (j : Fin 16384) : Pos (norm mem keys b h j) :=
  ((ksq_nn keys hk b h).add_pos eps_pos).sqrt.mul ((msq_nn mem hm b j).add_pos eps_pos).sqrt

theorem act_re (b : Fin 32) (h : Fin 16) (j : Fin 16384) : Re (act mem keys b h j) :=
  (dot_re mem keys hm hk b h j).div ((norm_pos mem keys hm hk b h j).add eps_pos)

omit hm hk in
include hs in
theorem sp_re (b : Fin 32) (h : Fin 16) : Re (sp str b h) :=
  ((hs b h).max Re.zero).add
    (((Re.zero.sub (((hs b h).sub Re.zero).max ((hs b h).sub Re.zero).neg)).exp).log1p)

include hs

theorem sharp_re (b : Fin 32) (h : Fin 16) (j : Fin 16384) : Re (sharp mem keys str b h j) :=
  (act_re mem keys hm hk b h j).mul (sp_re str hs b h)

theorem E_pos (b : Fin 32) (h : Fin 16) (j : Fin 16384) : Pos (E mem keys str b h j) :=
  (sharp_re mem keys str hm hk hs b h j).exp

/-- The row sum of the exponentials is a positive real number. -/
theorem rowsum_pos (b : Fin 32) (h : Fin 16) : Pos (∑ j' : Fin 16384, E mem keys str b h j') :=
  Pos.sum _ ⟨0, Finset.mem_univ _⟩ _ fun j' => E_pos mem keys str hm hk hs b h j'

theorem out_pos (b : Fin 32) (h : Fin 16) (j : Fin 16384) : Pos (out mem keys str b h j) :=
  (E_pos mem keys str hm hk hs b h j).div (rowsum_pos mem keys str hm hk hs b h)

end

/-! ## The shift law -/

/-- Subtracting a real constant from every exponent leaves the softmax unchanged. -/
theorem softmax_shift {ι : Type*} (s : Finset ι) (f : ι → ℝ) (μ : ℝ) (j : ι) (hs : s.Nonempty) :
    Ideal.div (Ideal.exp ((f j : EReal) - (μ : EReal))) (∑ i ∈ s, Ideal.exp ((f i : EReal) - (μ : EReal)))
      = Ideal.div (Ideal.exp (f j : EReal)) (∑ i ∈ s, Ideal.exp (f i : EReal)) := by
  have h1 : ∀ i, Ideal.exp ((f i : EReal) - (μ : EReal)) = ((Real.exp (f i - μ) : ℝ) : EReal) := fun i => by
    rw [← EReal.coe_sub, Ideal.exp_coe]
  have hp1 : 0 < ∑ i ∈ s, Real.exp (f i - μ) := Finset.sum_pos (fun i _ => Real.exp_pos _) hs
  have hp2 : 0 < ∑ i ∈ s, Real.exp (f i) := Finset.sum_pos (fun i _ => Real.exp_pos _) hs
  simp only [h1, Ideal.exp_coe]
  rw [← coe_sum, ← coe_sum, div_coe_pos _ _ hp1, div_coe_pos _ _ hp2]
  congr 1
  have h2 : ∑ i ∈ s, Real.exp (f i - μ) = (∑ i ∈ s, Real.exp (f i)) / Real.exp μ := by
    rw [Finset.sum_div]; exact Finset.sum_congr rfl fun i _ => Real.exp_sub _ _
  rw [h2, Real.exp_sub]
  have := Real.exp_pos μ
  field_simp

/-- The specification's result, with a real constant subtracted from every exponent. -/
theorem out_shift (mem : Fin 32 → Fin 16384 → Fin 256 → EReal) (keys : Fin 32 → Fin 16 → Fin 256 → EReal)
    (str : Fin 32 → Fin 16 → EReal)
    (hm : ∀ b j w, Re (mem b j w)) (hk : ∀ b h w, Re (keys b h w)) (hs : ∀ b h, Re (str b h))
    (b : Fin 32) (h : Fin 16) (j : Fin 16384) (M : EReal) (hM : Re M) :
    Ideal.div (Ideal.exp (sharp mem keys str b h j - M)) (∑ j' : Fin 16384, Ideal.exp (sharp mem keys str b h j' - M))
      = out mem keys str b h j := by
  obtain ⟨μ, rfl⟩ := hM
  choose f hf using fun j' => sharp_re mem keys str hm hk hs b h j'
  unfold out E
  simp only [hf]
  exact softmax_shift Finset.univ f μ j ⟨0, Finset.mem_univ _⟩

end Cert.Spec

end
-- ==== Proof.Finite.lean ====
/-
  From the precondition to real numbers. The precondition says, of each of the three argument arrays,
  that every entry's absolute value is below the float word of +∞; at the ideal values that word is the
  top element of the extended reals, so every entry is neither -∞ nor +∞: it is a real number.
-/
import proofs.«119697_j1176821039589_1_alg».proof.Proof.Gen.Pre_finite_inputs
import Idealize.ShloMosaic.PureOps.Ideal
import Idealize.ShloMosaic.Lib.ReduceAll
import Idealize.ShloMosaic.Lib.ValueIdx

namespace Cert.Finite

open Idealize.ShloMosaic

/-- The scalar shape has one index. -/
instance : Subsingleton Cert.Pre_finite_inputs.S_.Idx := ⟨fun _ _ => funext fun d => d.elim0⟩

/-- The float word `0x7F800000` is +∞. -/
theorem inf_word : Ideal.ofBits .f32 0x7F800000#32 = (⊤ : EReal) := by simp [Ideal.ofBits, Ideal.ieee]

/-- An extended real whose absolute value `max x (-x)` compares below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < (⊤ : EReal) := by
    by_contra hc
    simp [Ideal.cmp, hc] at h
  induction x using EReal.rec with
  | bot => simp at hlt
  | top => simp at hlt
  | coe r => exact ⟨r, rfl⟩

/-- Under the precondition every entry of each argument is a real number. -/
theorem real_of_pre (x0 : FVec Ideal Cert.Pre_finite_inputs.S32x16384x256 .f32)
    (x1 : FVec Ideal Cert.Pre_finite_inputs.S32x16x256 .f32) (x2 : FVec Ideal Cert.Pre_finite_inputs.S32x16 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  have h0' : IntOp.andi (IntOp.andi _ _) _ = 1#1 := h0
  obtain ⟨h01, hc⟩ := IntOp.andi_eq_one.1 h0'
  obtain ⟨ha, hb⟩ := IntOp.andi_eq_one.1 h01
  refine ⟨fun i => ?_, fun i => ?_, fun i => ?_⟩
  · exact real_of_abs_lt_inf _ (Host.reduce_andi_all _ _ _ _ _ ha i)
  · exact real_of_abs_lt_inf _ (Host.reduce_andi_all _ _ _ _ _ hb i)
  · exact real_of_abs_lt_inf _ (Host.reduce_andi_all _ _ _ _ _ hc i)

end Cert.Finite
-- ==== Proof.RefIsSpec.lean ====
/-
  The reference computes the specification. Read one operation at a time at an index given by its
  coordinates, the reference's cosine similarity, softplus and sharpened similarity are the
  specification's terms; its softmax subtracts the row maximum from every exponent, and under the
  precondition that maximum is a real number, so the shift law identifies the two.
-/
import proofs.«119697_j1176821039589_1_alg».proof.Proof.Gen.ReferenceIdeal.Read
import proofs.«119697_j1176821039589_1_alg».proof.Proof.Spec
import proofs.«119697_j1176821039589_1_alg».proof.Proof.SoftmaxLaw
import proofs.«119697_j1176821039589_1_alg».proof.Proof.Finite

noncomputable section

open scoped BigOperators

namespace Cert.RefSide

open Cert.ReferenceIdeal Cert.ReferenceIdeal.Read Idealize.ShloMosaic Idealize.ShloMosaic.ValueIdx

/-! ## The composed index functions at coordinates -/

theorem lidx_v0 (b : Fin 32) (h : Fin 16) (j : Fin 16384) (k : Fin 256) : lidx_main_v0 (ix3 b h j) k = ix3 b h k :=
  funext fun a => Fin.ext (by match a with | ⟨0, _⟩ => rfl | ⟨1, _⟩ => rfl | ⟨2, _⟩ => rfl)
theorem ridx_v0 (b : Fin 32) (h : Fin 16) (j : Fin 16384) (k : Fin 256) : ridx_main_v0 (ix3 b h j) k = ix3 b j k :=
  funext fun a => Fin.ext (by match a with | ⟨0, _⟩ => rfl | ⟨1, _⟩ => rfl | ⟨2, _⟩ => rfl)
theorem idx_v2 (b : Fin 32) (j : Fin 16384) (k : Fin 256) : idx_main_v2 (ix2 b j) k = ix3 b j k :=
  funext fun a => Fin.ext (by match a with | ⟨0, _⟩ => rfl | ⟨1, _⟩ => rfl | ⟨2, _⟩ => rfl)
theorem idx_v7 (b : Fin 32) (h : Fin 16) (k : Fin 256) : idx_main_v7 (ix2 b h) k = ix3 b h k :=
  funext fun a => Fin.ext (by match a with | ⟨0, _⟩ => rfl | ⟨1, _⟩ => rfl | ⟨2, _⟩ => rfl)
theorem idx_v11_v13 (b : Fin 32) (h : Fin 16) (j : Fin 16384) : idx_main_v11 (idx_main_v13 (ix3 b h j)) = ix2 b h :=
  funext fun a => Fin.ext (by match a with | ⟨0, _⟩ => rfl | ⟨1, _⟩ => rfl)
theorem idx_v12_v14 (b : Fin 32) (h : Fin 16) (j : Fin 16384) : idx_main_v12 (idx_main_v14 (ix3 b h j)) = ix2 b j :=
  funext fun a => Fin.ext (by match a with | ⟨0, _⟩ => rfl | ⟨1, _⟩ => rfl)
theorem idx_v20_v21 (b : Fin 32) (h : Fin 16) (j : Fin 16384) : idx_main_v20 (idx_main_v21 (ix3 b h j)) = ix2 b h :=
  funext fun a => Fin.ext (by match a with | ⟨0, _⟩ => rfl | ⟨1, _⟩ => rfl)
theorem idx_v26_v27 (b : Fin 32) (h : Fin 16) (j : Fin 16384) : idx_main_v26 (idx_main_v27 (ix3 b h j)) = ix2 b h :=
  funext fun a => Fin.ext (by match a with | ⟨0, _⟩ => rfl | ⟨1, _⟩ => rfl)
theorem idx_v31_v32 (b : Fin 32) (h : Fin 16) (j : Fin 16384) : idx_main_v31 (idx_main_v32 (ix3 b h j)) = ix2 b h :=
  funext fun a => Fin.ext (by match a with | ⟨0, _⟩ => rfl | ⟨1, _⟩ => rfl)
theorem idx_v30 (b : Fin 32) (h : Fin 16) (k : Fin 16384) : idx_main_v30 (ix2 b h) k = ix3 b h k :=
  funext fun a => Fin.ext (by match a with | ⟨0, _⟩ => rfl | ⟨1, _⟩ => rfl | ⟨2, _⟩ => rfl)

/-! ## The arguments as functions of coordinates -/

section
variable (x0 : (⟨S32x16384x256, .f32⟩ : BufTy).Contents (Elt Ideal)) (x1 : (⟨S32x16x256, .f32⟩ : BufTy).Contents (Elt Ideal))
  (x2 : (⟨S32x16, .f32⟩ : BufTy).Contents (Elt Ideal))

/-- The memory rows by coordinates. -/
abbrev memOf : Fin 32 → Fin 16384 → Fin 256 → EReal := fun b j w => x0 (ix3 b j w)
/-- The keys by coordinates. -/
abbrev keysOf : Fin 32 → Fin 16 → Fin 256 → EReal := fun b h w => x1 (ix3 b h w)
/-- The strengths by coordinates. -/
abbrev strOf : Fin 32 → Fin 16 → EReal := fun b h => x2 (ix2 b h)

/-! ## The stages up to the sharpened similarity -/

/-- The batched product of keys and memory rows is the inner product. -/
theorem v0_eq (b : Fin 32) (h : Fin 16) (j : Fin 16384) :
    val_main_v0 (F := Ideal) x0 x1 (ix3 b h j) = Spec.dot (memOf x0) (keysOf x1) b h j := by
  rw [val_main_v0_apply]
  unfold Spec.dot
  exact Finset.sum_congr rfl fun k _ => by rw [lidx_v0, ridx_v0]

/-- The sum of squares of a memory row. -/
theorem v2_eq (b : Fin 32) (j : Fin 16384) : val_main_v2 (F := Ideal) x0 (ix2 b j) = Spec.msq (memOf x0) b j := by
  rw [val_main_v2_apply, val_main_cst_apply]
  show Ideal.ofBits .f32 0x00000000#32 + _ = _
  rw [Ideal.ofBits_zero_f32, zero_add]
  unfold Spec.msq
  exact Finset.sum_congr rfl fun k _ => by rw [val_main_v1_apply, idx_v2]; rfl

/-- The sum of squares of a key. -/
theorem v7_eq (b : Fin 32) (h : Fin 16) : val_main_v7 (F := Ideal) x1 (ix2 b h) = Spec.ksq (keysOf x1) b h := by
  rw [val_main_v7_apply, val_main_cst_1_apply]
  show Ideal.ofBits .f32 0x00000000#32 + _ = _
  rw [Ideal.ofBits_zero_f32, zero_add]
  unfold Spec.ksq
  exact Finset.sum_congr rfl fun k _ => by rw [val_main_v6_apply, idx_v7]; rfl

/-- The stabilised norm of a memory row. -/
theorem v5_eq (b : Fin 32) (j : Fin 16384) :
    val_main_v5 (F := Ideal) x0 (ix2 b j) = Ideal.sqrt (Spec.msq (memOf x0) b j + Spec.eps) := by
  rw [val_main_v5_apply, val_main_v4_apply, v2_eq, val_main_v3_apply, val_main_cst_0_apply]
  rfl

/-- The stabilised norm of a key. -/
theorem v10_eq (b : Fin 32) (h : Fin 16) :
    val_main_v10 (F := Ideal) x1 (ix2 b h) = Ideal.sqrt (Spec.ksq (keysOf x1) b h + Spec.eps) := by
  rw [val_main_v10_apply, val_main_v9_apply, v7_eq, val_main_v8_apply, val_main_cst_2_apply]
  rfl

/-- The denominator of the cosine similarity. -/
theorem v17_eq (b : Fin 32) (h : Fin 16) (j : Fin 16384) :
    val_main_v17 (F := Ideal) x0 x1 (ix3 b h j) = Spec.norm (memOf x0) (keysOf x1) b h j + Spec.eps := by
  rw [val_main_v17_apply, val_main_v15_apply, val_main_v13_apply, val_main_v11_apply, idx_v11_v13, v10_eq,
    val_main_v14_apply, val_main_v12_apply, idx_v12_v14, v5_eq, val_main_v16_apply, val_main_cst_3_apply]
  rfl

/-- The cosine similarity. -/
theorem v18_eq (b : Fin 32) (h : Fin 16) (j : Fin 16384) :
    val_main_v18 (F := Ideal) x0 x1 (ix3 b h j) = Spec.act (memOf x0) (keysOf x1) b h j := by
  rw [val_main_v18_apply, v0_eq, v17_eq]
  rfl

end

/-! ## The softplus and the sharpened similarity -/

section
variable (x0 : (⟨S32x16384x256, .f32⟩ : BufTy).Contents (Elt Ideal)) (x1 : (⟨S32x16x256, .f32⟩ : BufTy).Contents (Elt Ideal))
  (x2 : (⟨S32x16, .f32⟩ : BufTy).Contents (Elt Ideal))

/-- No extended real differs from itself, so the comparison "not equal to itself" answers 0. -/
theorem cmp_une_self (a : EReal) : Ideal.cmp .une a a = 0#1 := by simp [Ideal.cmp]

/-- The softplus of a strength: the branch for a value that differs from itself is never taken. -/
theorem v19_eq (b : Fin 32) (h : Fin 16) : val_main_v19 (F := Ideal) x2 (ix2 b h) = Spec.sp (strOf x2) b h := by
  rw [val_main_v19_apply, val_main_call0_v4_apply]
  show Scalar.select (Ideal.cmp .une _ _) _ _ = _
  rw [cmp_une_self, select_zero, val_main_call0_v11_apply, val_main_call0_v1_apply, val_main_call0_v0_apply,
    val_main_call0_cst_apply, val_main_call0_v10_apply, val_main_call0_v9_apply, val_main_call0_v8_apply,
    val_main_call0_v7_apply, val_main_call0_v3_apply, val_main_call0_v2_apply, val_main_call0_cst_apply]
  show max (x2 (ix2 b h)) (Ideal.ofBits .f32 0x00000000#32)
      + Ideal.log1p (Ideal.exp (-(max (x2 (ix2 b h) - Ideal.ofBits .f32 0x00000000#32)
          (-(x2 (ix2 b h) - Ideal.ofBits .f32 0x00000000#32))))) = _
  rw [Ideal.ofBits_zero_f32, ← zero_sub]
  rfl

/-- The sharpened similarity. -/
theorem v22_eq (b : Fin 32) (h : Fin 16) (j : Fin 16384) :
    val_main_v22 (F := Ideal) x0 x1 x2 (ix3 b h j) = Spec.sharp (memOf x0) (keysOf x1) (strOf x2) b h j := by
  rw [val_main_v22_apply, v18_eq, val_main_v21_apply, val_main_v20_apply, idx_v20_v21, v19_eq]
  rfl

end

/-! ## The row maximum is a real number -/

/-- The fold of `max` from -∞ over a nonempty finite family of real numbers is a real number. -/
theorem fold_max_re {ι : Type*} (s : Finset ι) (hs : s.Nonempty) (g : ι → EReal) (hg : ∀ i, Spec.Re (g i)) :
    Spec.Re (s.fold max (⊥ : EReal) g) := by
  have hlt : s.fold max (⊥ : EReal) g < ⊤ := (Finset.fold_max_lt _).2 ⟨bot_lt_top, fun i _ => by
    obtain ⟨r, hr⟩ := hg i; rw [hr]; exact EReal.coe_lt_top r⟩
  have hgt : (⊥ : EReal) < s.fold max (⊥ : EReal) g := by
    obtain ⟨i, hi⟩ := hs
    obtain ⟨r, hr⟩ := hg i
    exact (Finset.lt_fold_max _).2 (Or.inr ⟨i, hi, by rw [hr]; exact EReal.bot_lt_coe r⟩)
  exact ⟨_, (EReal.coe_toReal hlt.ne hgt.ne').symm⟩

/-- The float word `0xFF800000` is -∞. -/
theorem neg_inf_word : Ideal.ofBits .f32 0xFF800000#32 = (⊥ : EReal) := by simp [Ideal.ofBits, Ideal.ieee]

section
variable (x0 : (⟨S32x16384x256, .f32⟩ : BufTy).Contents (Elt Ideal)) (x1 : (⟨S32x16x256, .f32⟩ : BufTy).Contents (Elt Ideal))
  (x2 : (⟨S32x16, .f32⟩ : BufTy).Contents (Elt Ideal))

/-- The maximum over a row of real numbers, taken from -∞, is a real number. -/
theorem v23_re (hre : ∀ i, Spec.Re (val_main_v22 (F := Ideal) x0 x1 x2 i)) (b : Fin 32) (h : Fin 16) :
    Spec.Re (val_main_v23 (F := Ideal) x0 x1 x2 (ix2 b h)) := by
  unfold val_main_v23
  generalize val_main_v22 (F := Ideal) x0 x1 x2 = y at hre ⊢
  have e := Host.reduce_eq_fold_single (FloatOps.maximumf (F := Ideal) (φ := .f32)) y (val_main_cst_4 (F := Ideal))
    Gen.reducesTo_S32x16x16384_S32x16_d2 (by decide) Gen.h_S_ (ix2 b h)
  have hb : (val_main_cst_4 (F := Ideal)) (Shape.Idx.first Gen.h_S_) = (⊥ : EReal) := neg_inf_word
  rw [hb] at e
  obtain ⟨r, hr⟩ := fold_max_re (Finset.univ : Finset (Fin (S32x16x16384.size 2))) ⟨⟨0, by decide⟩, Finset.mem_univ _⟩ _
    fun k => hre ((Shape.Reduces.lift (by decide) (ix2 b h) : Fin (S32x16x16384.size 2) → S32x16x16384.Idx) k)
  exact ⟨r, e.trans hr⟩

/-- So is the reference's shift: the maximum of -∞ and the row maximum. -/
theorem v25_re (hre : ∀ i, Spec.Re (val_main_v22 (F := Ideal) x0 x1 x2 i)) (b : Fin 32) (h : Fin 16) :
    Spec.Re (val_main_v25 (F := Ideal) x0 x1 x2 (ix2 b h)) := by
  rw [val_main_v25_apply, val_main_v24_apply, val_main_cst_5_apply]
  show Spec.Re (max (Ideal.ofBits .f32 0xFF800000#32) _)
  rw [neg_inf_word, max_eq_right bot_le]
  exact v23_re x0 x1 x2 hre b h

/-! ## The softmax -/

/-- The exponential of the shifted similarity. -/
theorem v29_eq (b : Fin 32) (h : Fin 16) (j : Fin 16384) :
    val_main_v29 (F := Ideal) x0 x1 x2 (ix3 b h j)
      = Ideal.exp (Spec.sharp (memOf x0) (keysOf x1) (strOf x2) b h j - val_main_v25 (F := Ideal) x0 x1 x2 (ix2 b h)) := by
  rw [val_main_v29_apply, val_main_v28_apply, v22_eq, val_main_v27_apply, val_main_v26_apply, idx_v26_v27]
  rfl

/-- The reference's result with the shift still in it. -/
theorem v33_eq (b : Fin 32) (h : Fin 16) (j : Fin 16384) :
    val_main_v33 (F := Ideal) x0 x1 x2 (ix3 b h j)
      = Ideal.div (Ideal.exp (Spec.sharp (memOf x0) (keysOf x1) (strOf x2) b h j - val_main_v25 (F := Ideal) x0 x1 x2 (ix2 b h)))
          (∑ j' : Fin 16384, Ideal.exp (Spec.sharp (memOf x0) (keysOf x1) (strOf x2) b h j' - val_main_v25 (F := Ideal) x0 x1 x2 (ix2 b h))) := by
  rw [val_main_v33_apply, v29_eq, val_main_v32_apply, val_main_v31_apply, idx_v31_v32, val_main_v30_apply,
    val_main_cst_6_apply]
  show Ideal.div _ (Ideal.ofBits .f32 0x00000000#32 + _) = _
  rw [Ideal.ofBits_zero_f32, zero_add]
  refine congrArg (Ideal.div _) (Finset.sum_congr rfl fun k _ => ?_)
  rw [idx_v30, v29_eq]

end

/-! ## The reference is the specification -/

/-- Under the precondition the reference's result at `(b, h, j)` is the specification's. -/
theorem ref_eq_spec (x0 : (⟨Cert.ReferenceIdeal.S32x16384x256, .f32⟩ : BufTy).Contents (Elt Ideal))
    (x1 : (⟨Cert.ReferenceIdeal.S32x16x256, .f32⟩ : BufTy).Contents (Elt Ideal))
    (x2 : (⟨Cert.ReferenceIdeal.S32x16, .f32⟩ : BufTy).Contents (Elt Ideal))
    (hfin : Cert.Pre_finite_inputs.fn (F := Ideal) x0 x1 x2 = (fun _ => 1#1)) (b : Fin 32) (h : Fin 16) (j : Fin 16384) :
    Cert.ReferenceIdeal.Read.val_main_v33 (F := Ideal) x0 x1 x2 (ValueIdx.ix3 b h j)
      = Cert.Spec.out (fun b j w => x0 (ValueIdx.ix3 b j w)) (fun b h w => x1 (ValueIdx.ix3 b h w))
          (fun b h => x2 (ValueIdx.ix2 b h)) b h j := by
  obtain ⟨h0, h1, h2⟩ := Cert.Finite.real_of_pre x0 x1 x2 hfin
  have hm : ∀ b j w, Spec.Re (memOf x0 b j w) := fun b j w => h0 _
  have hk : ∀ b h w, Spec.Re (keysOf x1 b h w) := fun b h w => h1 _
  have hs : ∀ b h, Spec.Re (strOf x2 b h) := fun b h => h2 _
  have hre : ∀ i, Spec.Re (val_main_v22 (F := Ideal) x0 x1 x2 i) := fun i => by
    obtain ⟨b', h', j', rfl⟩ : ∃ (b' : Fin 32) (h' : Fin 16) (j' : Fin 16384), i = ix3 b' h' j' :=
      ⟨i 0, i 1, i 2, eq_ix3 i⟩
    rw [v22_eq]
    exact Spec.sharp_re _ _ _ hm hk hs _ _ _
  rw [v33_eq]
  exact Spec.out_shift (memOf x0) (keysOf x1) (strOf x2) hm hk hs b h j _ (v25_re x0 x1 x2 hre b h)

end Cert.RefSide

end
-- ==== Proof.lean ====
/- Cosine-similarity content addressing followed by a softmax over the memory rows, as two kernels — the first
   streams the memory once, writing E = exp(sharp) block by block and accumulating each row's sum over the eight
   blocks of a batch entry in a scratch; the second divides E by the row sums — against the plain formulation whose
   softmax subtracts the row maximum first. Over the extended reals, on finite inputs, every sharpened activation is a
   real, so exp(s - M) / sum exp(s' - M) = exp(s) / sum exp(s') and the two programs compute one function.
   The three frames: each kernel program's by its run as three segments (the host line, the two kernels), the
   reference's by its run as a list of host operations. The idealization rewrote nothing. -/
import proofs.«119697_j1176821039589_1_alg».proof.Defs
import proofs.«119697_j1176821039589_1_alg».proof.Proof.Gen.Kernel
import proofs.«119697_j1176821039589_1_alg».proof.Proof.Gen.KernelIdeal
import proofs.«119697_j1176821039589_1_alg».proof.Proof.Gen.ReferenceIdeal
import proofs.«119697_j1176821039589_1_alg».proof.Proof.Gen.ReferenceIdeal.Run
import proofs.«119697_j1176821039589_1_alg».proof.Proof.Gen.ReferenceIdeal.Read
import proofs.«119697_j1176821039589_1_alg».proof.Proof.Gen.Pre_finite_inputs
import proofs.«119697_j1176821039589_1_alg».proof.Proof.HandK.Run
import proofs.«119697_j1176821039589_1_alg».proof.Proof.HandKI.Run
import proofs.«119697_j1176821039589_1_alg».proof.Proof.HandKI.Final
import proofs.«119697_j1176821039589_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ
/-- So does its reading over the extended reals. -/
theorem frame_ki : Cert.frame_KernelIdeal := fun m ρ _ => Cert.KernelIdeal.Hand.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Idealize.ShloMosaic.ValueIdx in
/-- From memories agreeing on the arguments: the kernel program ends with its result array at the specification's
    softmax (the first kernel's exponentials and row sums, the second kernel's quotient), and the reference's run ends
    at the shifted softmax of the same sharpened activations, which is the same extended real entry by entry because
    finite inputs make every activation and the row maximum real. -/
theorem algebraic : Cert.algebraic_KernelIdeal_ReferenceIdeal := by
  intro m ρ m' ρ' hpre hagree
  refine ⟨fun c => Cert.KernelIdeal.Hand.result m c, ?_, ?_⟩
  · exact (θ_run Cert.KernelIdeal.defs _ _).mono (fun r h c =>
      ⟨(h c _ (Cert.KernelIdeal.Hand.mem_uc Cert.KernelIdeal.main_v2 (by decide))).trans (Cert.KernelIdeal.Hand.W3_main_v2 m ρ c),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2]
    funext i
    obtain ⟨b, h, j, rfl⟩ : ∃ (b : Fin 32) (h : Fin 16) (j : Fin 16384), i = ix3 b h j := ⟨i 0, i 1, i 2, eq_ix3 i⟩
    exact Cert.RefSide.ref_eq_spec _ _ _ (hpre c) b h j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
